-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S128x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x64 .f32) (main_arg8 : FVec F S64 .f32) (main_arg9 : FVec F S128x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S64x128 .f32) (main_arg3 : FVec F S128 .f32) (main_arg4 : FVec F S64x128 .f32) (main_arg5 : FVec F S128 .f32) (main_arg6 : FVec F S128 .f32) (main_arg7 : FVec F S128x64 .f32) (main_arg8 : FVec F S64 .f32) (main_arg9 : FVec F S128x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S1x64 : Shape := ⟨2, ![1, 64]⟩

abbrev nBuf : Space → Nat
  | .hbm => 89
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S1x128, .f32⟩
  | .hbm, ⟨50, _⟩ => ⟨S50000x128, .f32⟩
  | .hbm, ⟨51, _⟩ => ⟨S_, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S50000x128, .f32⟩
  | .hbm, ⟨70, _⟩ => ⟨S50000x64, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x64, .f32⟩
  | .hbm, ⟨80, _⟩ => ⟨S_, .f32⟩
  | .hbm, ⟨81, _⟩ => ⟨S50000x64, .f32⟩
  | .hbm, ⟨82, _⟩ => ⟨S800000x1, .i32⟩
  | .hbm, ⟨83, _⟩ => ⟨S50000x64, .f32⟩
  | .hbm, ⟨84, _⟩ => ⟨S50000x1, .f32⟩
  | .hbm, ⟨85, _⟩ => ⟨S50000x64, .f32⟩
  | .hbm, ⟨86, _⟩ => ⟨S50000x64, .f32⟩
  | .hbm, ⟨87, _⟩ => ⟨S1x64, .f32⟩
  | .hbm, ⟨88, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x64, .f32⟩
  | .local _ .vmem, ⟨16, _⟩ => ⟨S5000x128, .f32⟩
  | .local _ .vmem, ⟨17, _⟩ => ⟨S5000x128, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44_0 : Ref sig .tc := ⟨.hbm, 69, rfl⟩
abbrev main_v44_1 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_13 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v27) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 110
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .f32⟩
  | .hbm, ⟨97, _⟩ => ⟨S_, .f32⟩
  | .hbm, ⟨98, _⟩ => ⟨S50000x128, .f32⟩
  | .hbm, ⟨99, _⟩ => ⟨S800000x1, .i32⟩
  | .hbm, ⟨100, _⟩ => ⟨S50000x128, .f32⟩
  | .hbm, ⟨101, _⟩ => ⟨S50000x1, .f32⟩
  | .hbm, ⟨102, _⟩ => ⟨S50000x128, .f32⟩
  | .hbm, ⟨103, _⟩ => ⟨S50000x128, .f32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | .hbm, ⟨108, _⟩ => ⟨S50000x64, .f32⟩
  | .hbm, ⟨109, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_c_12 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result array NAMED: every weakly fair execution of the three-region program
  terminates without a fault, the result buffer holds what the last region's write-backs leave (the last boundary
  valuation of the fold through the program, read at the result), and the argument arrays are unchanged.
-/
import proofs.«103092_j3092376453137_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and every argument as launched. -/
theorem run_valued : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KRun

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«103092_j3092376453137_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.LibScatter.lean ====
/-
  General lemmas about the accumulating scatter of whole rows, read at an entry: a table of rows to which update rows
  are added at the rows a column of start indices names, and the same for a vector to which update entries are added.
  The result at an entry is the table's entry plus the sum of the updates whose start index, read as a signed integer,
  names that row; an update whose start index names no row of the table contributes nothing. None mentions a program.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ScatterLib

open Idealize.ShloMosaic Idealize.ShloMosaic.ValueIdx

/-! ## Update rows added into a table -/

/-- The dimension numbers of a scatter of whole rows: a table of N rows of C entries, a column of R start indices,
    R update rows of C entries; the row axis of the table is named by the start index, the column axis is the
    window axis. -/
abbrev rowScatterDims (N C R : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows

variable {N C R : ℕ} (wf : ScatterDims.WF ⟨2, ![N, C]⟩ ⟨2, ![R, 1]⟩ ⟨2, ![R, C]⟩ [1] [0] [0] 1)

/-- On the row axis the window coordinate of an update entry is zero: the row comes from the start index alone. -/
theorem rows_window_zero (r : Fin R) (k' : Fin C) :
    (rowScatterDims N C R wf).window (ix2 r k') (0 : Fin 2) = 0 := by
  unfold ScatterDims.window
  rw [dif_neg (show (0 : Fin 2) ∉ (rowScatterDims N C R wf).sKept from
    (by decide : (0 : Fin 2) ∉ ([1] : List (Fin 2))))]

/-- On the column axis the window coordinate of update entry (r, k') is k'. -/
theorem rows_window_one (r : Fin R) (k' : Fin C) :
    (rowScatterDims N C R wf).window (ix2 r k') (1 : Fin 2) = k'.val := by
  unfold ScatterDims.window
  rw [dif_pos (show (1 : Fin 2) ∈ (rowScatterDims N C R wf).sKept from
    (by decide : (1 : Fin 2) ∈ ([1] : List (Fin 2))))]
  rfl

variable {w : ℕ} (idx : IVec ⟨2, ![R, 1]⟩ w)

/-- On the row axis the window of update entry (r, k') starts at start index r, read as a signed integer. -/
theorem rows_start_zero (r : Fin R) (k' : Fin C) :
    (rowScatterDims N C R wf).start (ix2 r k') idx (0 : Fin 2) = (idx (ix2 r (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 r k')
      ⟨List.idxOf (0 : Fin 2) (rowScatterDims N C R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- On the column axis the window starts at zero. -/
theorem rows_start_one (r : Fin R) (k' : Fin C) :
    (rowScatterDims N C R wf).start (ix2 r k') idx (1 : Fin 2) = 0 := by
  unfold ScatterDims.start
  rw [dif_neg (show (1 : Fin 2) ∉ (rowScatterDims N C R wf).scatterDimsToOperandDims from
    (by decide : (1 : Fin 2) ∉ ([0] : List (Fin 2))))]

/-- WHERE AN UPDATE ENTRY LANDS: update entry (r, k') lands at table entry (b, k) exactly when start index r, read
    as a signed integer, is b, and k' is k. -/
theorem rows_resultIdx_iff (r : Fin R) (k' : Fin C) (b : Fin N) (k : Fin C) :
    (rowScatterDims N C R wf).resultIdx? (ix2 r k') idx = some (ix2 b k) ↔
      (idx (ix2 r (0 : Fin 1))).toInt = (b.val : ℤ) ∧ k' = k := by
  have s0 := rows_start_zero wf idx r k'
  have s1 := rows_start_one wf idx r k'
  have w0 := rows_window_zero wf r k'
  have w1 := rows_window_one wf r k'
  have hN : (⟨2, ![N, C]⟩ : Shape).size (0 : Fin 2) = N := rfl
  have hC : (⟨2, ![N, C]⟩ : Shape).size (1 : Fin 2) = C := rfl
  have hb := b.isLt
  have hk := k.isLt
  have hk' := k'.isLt
  unfold ScatterDims.resultIdx?
  split
  · rename_i h
    have h0 := h (0 : Fin 2)
    rw [s0, w0] at h0
    constructor
    · intro he
      have he' := Option.some.inj he
      have e0 : ((rowScatterDims N C R wf).start (ix2 r k') idx (0 : Fin 2)
          + ((rowScatterDims N C R wf).window (ix2 r k') (0 : Fin 2) : ℕ)).toNat = b.val :=
        congrArg Fin.val (congrFun he' (0 : Fin 2))
      have e1 : ((rowScatterDims N C R wf).start (ix2 r k') idx (1 : Fin 2)
          + ((rowScatterDims N C R wf).window (ix2 r k') (1 : Fin 2) : ℕ)).toNat = k.val :=
        congrArg Fin.val (congrFun he' (1 : Fin 2))
      rw [s0, w0] at e0
      rw [s1, w1] at e1
      exact ⟨by omega, Fin.ext (by omega)⟩
    · rintro ⟨hbe, hke⟩
      refine congrArg some (funext (Fin.forall_fin_two.2 ⟨Fin.ext ?_, Fin.ext ?_⟩))
      · show ((rowScatterDims N C R wf).start (ix2 r k') idx (0 : Fin 2)
          + ((rowScatterDims N C R wf).window (ix2 r k') (0 : Fin 2) : ℕ)).toNat = b.val
        rw [s0, w0]; omega
      · show ((rowScatterDims N C R wf).start (ix2 r k') idx (1 : Fin 2)
          + ((rowScatterDims N C R wf).window (ix2 r k') (1 : Fin 2) : ℕ)).toNat = k.val
        rw [s1, w1, hke]; omega
  · rename_i h
    constructor
    · intro he; exact absurd he (by simp)
    · rintro ⟨hbe, hke⟩
      exfalso; apply h
      refine Fin.forall_fin_two.2 ⟨?_, ?_⟩
      · rw [s0, w0, hN]; omega
      · rw [s1, w1, hC]; omega

/-- The same for an update index not yet split into its coordinates. -/
theorem rows_resultIdx_iff' (j : (⟨2, ![R, C]⟩ : Shape).Idx) (b : Fin N) (k : Fin C) :
    (rowScatterDims N C R wf).resultIdx? j idx = some (ix2 b k) ↔
      (idx (ix2 (j (0 : Fin 2)) (0 : Fin 1))).toInt = (b.val : ℤ) ∧ j (1 : Fin 2) = k := by
  have e : (ix2 (j (0 : Fin 2)) (j (1 : Fin 2)) : (⟨2, ![R, C]⟩ : Shape).Idx) = j := (eq_ix2 j).symm
  have h := rows_resultIdx_iff wf idx (j (0 : Fin 2)) (j (1 : Fin 2)) b k
  rw [e] at h
  exact h

end Rows

/-- THE ROW SCATTER READ AT (b, k): the table's entry plus the sum, over the update rows whose start index, read as
    a signed integer, is b, of their entry in column k. -/
theorem scatterAdd_rows_apply {N C R w : ℕ}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (b : Fin N) (k : Fin C) :
    Ideal.hostScatterAdd (rowScatterDims N C R wf) x idx upd (ix2 b k) = x (ix2 b k)
      + ∑ r ∈ Finset.univ.filter (fun r : Fin R => (idx (ix2 r (0 : Fin 1))).toInt = (b.val : ℤ)), upd (ix2 r k) := by
  unfold Ideal.hostScatterAdd
  congr 1
  refine Finset.sum_nbij' (fun j => ((j (0 : Fin 2)) : Fin R)) (fun r => (ix2 r k : (⟨2, ![R, C]⟩ : Shape).Idx))
    ?_ ?_ ?_ ?_ ?_
  · intro j hj
    have hj' := (rows_resultIdx_iff' wf idx j b k).1 (Finset.mem_filter.1 hj).2
    exact Finset.mem_filter.2 ⟨Finset.mem_univ _, hj'.1⟩
  · intro r hr
    exact Finset.mem_filter.2 ⟨Finset.mem_univ _,
      (rows_resultIdx_iff wf idx r k b k).2 ⟨(Finset.mem_filter.1 hr).2, rfl⟩⟩
  · intro j hj
    have hj' := (rows_resultIdx_iff' wf idx j b k).1 (Finset.mem_filter.1 hj).2
    show ix2 (j (0 : Fin 2)) k = j
    rw [← hj'.2]; exact (eq_ix2 j).symm
  · intro r _; rfl
  · intro j hj
    have hj' := (rows_resultIdx_iff' wf idx j b k).1 (Finset.mem_filter.1 hj).2
    show upd j = upd (ix2 (j (0 : Fin 2)) k)
    rw [← hj'.2]; exact congrArg upd (eq_ix2 j)

/-! ## Update entries added into a vector -/

/-- The dimension numbers of a scatter of single entries into a vector: a vector of N entries, a column of R start
    indices, R update entries; the vector's one axis is named by the start index and there is no window axis. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec

variable {N R : ℕ} (wf : ScatterDims.WF ⟨1, ![N]⟩ ⟨2, ![R, 1]⟩ ⟨1, ![R]⟩ [] [0] [0] 1)

/-- The window coordinate of an update entry is zero: the place comes from the start index alone. -/
theorem vec_window_zero (r : Fin R) :
    (vecScatterDims N R wf).window (ix1 r) (0 : Fin 1) = 0 := by
  unfold ScatterDims.window
  rw [dif_neg (show (0 : Fin 1) ∉ (vecScatterDims N R wf).sKept from
    (by decide : (0 : Fin 1) ∉ ([] : List (Fin 1))))]

variable {w : ℕ} (idx : IVec ⟨2, ![R, 1]⟩ w)

/-- The window of update entry r starts at start index r, read as a signed integer. -/
theorem vec_start_zero (r : Fin R) :
    (vecScatterDims N R wf).start (ix1 r) idx (0 : Fin 1) = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r)
      ⟨List.idxOf (0 : Fin 1) (vecScatterDims N R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- WHERE AN UPDATE ENTRY LANDS: update entry r lands at vector entry b exactly when start index r, read as a signed
    integer, is b. -/
theorem vec_resultIdx_iff (r : Fin R) (b : Fin N) :
    (vecScatterDims N R wf).resultIdx? (ix1 r) idx = some (ix1 b) ↔
      (idx (ix2 r (0 : Fin 1))).toInt = (b.val : ℤ) := by
  have s0 := vec_start_zero wf idx r
  have w0 := vec_window_zero wf r
  have hN : (⟨1, ![N]⟩ : Shape).size (0 : Fin 1) = N := rfl
  have hb := b.isLt
  unfold ScatterDims.resultIdx?
  split
  · rename_i h
    have h0 := h (0 : Fin 1)
    rw [s0, w0] at h0
    constructor
    · intro he
      have he' := Option.some.inj he
      have e0 : ((vecScatterDims N R wf).start (ix1 r) idx (0 : Fin 1)
          + ((vecScatterDims N R wf).window (ix1 r) (0 : Fin 1) : ℕ)).toNat = b.val :=
        congrArg Fin.val (congrFun he' (0 : Fin 1))
      rw [s0, w0] at e0
      omega
    · intro hbe
      refine congrArg some (funext (Fin.forall_fin_one.2 (Fin.ext ?_)))
      show ((vecScatterDims N R wf).start (ix1 r) idx (0 : Fin 1)
          + ((vecScatterDims N R wf).window (ix1 r) (0 : Fin 1) : ℕ)).toNat = b.val
      rw [s0, w0]; omega
  · rename_i h
    constructor
    · intro he; exact absurd he (by simp)
    · intro hbe
      exfalso; apply h
      refine Fin.forall_fin_one.2 ?_
      rw [s0, w0, hN]; omega

/-- The same for an update index not yet split into its coordinate. -/
theorem vec_resultIdx_iff' (j : (⟨1, ![R]⟩ : Shape).Idx) (b : Fin N) :
    (vecScatterDims N R wf).resultIdx? j idx = some (ix1 b) ↔
      (idx (ix2 (j (0 : Fin 1)) (0 : Fin 1))).toInt = (b.val : ℤ) := by
  have e : (ix1 (j (0 : Fin 1)) : (⟨1, ![R]⟩ : Shape).Idx) = j := (eq_ix1 j).symm
  have h := vec_resultIdx_iff wf idx (j (0 : Fin 1)) b
  rw [e] at h
  exact h

end Vec

/-- THE VECTOR SCATTER READ AT b: the vector's entry plus the sum of the update entries whose start index, read as a
    signed integer, is b. -/
theorem scatterAdd_vec_apply {N R w : ℕ}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (b : Fin N) :
    Ideal.hostScatterAdd (vecScatterDims N R wf) x idx upd (ix1 b) = x (ix1 b)
      + ∑ r ∈ Finset.univ.filter (fun r : Fin R => (idx (ix2 r (0 : Fin 1))).toInt = (b.val : ℤ)), upd (ix1 r) := by
  unfold Ideal.hostScatterAdd
  congr 1
  refine Finset.sum_nbij' (fun j => ((j (0 : Fin 1)) : Fin R)) (fun r => (ix1 r : (⟨1, ![R]⟩ : Shape).Idx))
    ?_ ?_ ?_ ?_ ?_
  · intro j hj
    exact Finset.mem_filter.2 ⟨Finset.mem_univ _, (vec_resultIdx_iff' wf idx j b).1 (Finset.mem_filter.1 hj).2⟩
  · intro r hr
    exact Finset.mem_filter.2 ⟨Finset.mem_univ _, (vec_resultIdx_iff wf idx r b).2 (Finset.mem_filter.1 hr).2⟩
  · intro j _
    exact (eq_ix1 j).symm
  · intro r _; rfl
  · intro j _
    exact congrArg upd (eq_ix1 j)

end Cert.ScatterLib

end
-- ==== Proof.LibSageSpec.lean ====
/-
  The mathematics of a two-layer mean-aggregation graph network, as functions of whole arrays over the extended
  reals: rows of a table taken at a column of start indices, update rows summed per destination row, a per-row
  scale, column means, the normalisation of every column followed by the cut at zero, and the two ways the second
  layer may be arranged (the weight applied before or after the aggregation). No program is mentioned.
-/
import proofs.«103092_j3092376453137_2_alg».proof.Proof.LibDense
import proofs.«103092_j3092376453137_2_alg».proof.Proof.LibRows
import proofs.«103092_j3092376453137_2_alg».proof.Proof.LibScatter

noncomputable section

namespace Cert.Sage

open Idealize.ShloMosaic Idealize.ShloMosaic.ValueIdx Cert.DenseLib Cert.RowsLib

/-- A rank-two array of extended reals. -/
abbrev Mat (a b : ℕ) : Type := (⟨2, ![a, b]⟩ : Shape).Idx → EReal
/-- A vector of extended reals. -/
abbrev Vc (a : ℕ) : Type := (⟨1, ![a]⟩ : Shape).Idx → EReal
/-- A column of 32-bit start indices. -/
abbrev ICol (R : ℕ) : Type := IVec ⟨2, ![R, 1]⟩ 32

/-- Every entry is a real number (neither infinity). -/
def IsFin {s : Shape} (X : s.Idx → EReal) : Prop := ∀ i, ∃ r : ℝ, X i = (r : EReal)

variable {N C R : ℕ}

/-- Row `r` of the result is the row of `X` that start index `r` names (clamped into the table). -/
def takeRows (hN : 0 < N) (src : ICol R) (X : Mat N C) : Mat R C :=
  fun i => X (ix2 (rowOf N hN (src (ix2 (n0 := R) (i 0) (0 : Fin 1)))) (n1 := C) (i 1))

/-- Row `b` of the result is the sum of the update rows whose start index, read as a signed integer, is `b`. -/
def segSum (dst : ICol R) (U : Mat R C) : Mat N C :=
  fun i => ∑ r ∈ Finset.univ.filter (fun r : Fin R => (dst (ix2 r (0 : Fin 1))).toInt = (((i 0 : Fin N)).val : ℤ)),
    U (ix2 r (n1 := C) (i 1))

/-- Every row scaled by that row's entry of `d`. -/
def scaleRows (d : Vc N) (X : Mat N C) : Mat N C := fun i => X i * d (ix1 (n := N) (i 0))

/-- The mean aggregation: neighbours' rows taken, summed per destination, scaled by the reciprocal degree. -/
def meanAgg (hN : 0 < N) (src dst : ICol R) (d : Vc N) (X : Mat N C) : Mat N C :=
  scaleRows d (segSum dst (takeRows hN src X))

/-- The column sums (from zero) divided by the constant `cN`. -/
def colMean (cN : EReal) (X : Mat N C) : Vc C :=
  fun j => Ideal.div (0 + ∑ n : Fin N, X (ix2 n (n1 := C) (j 0))) cN

/-- The squared deviation of every entry from its column's value of `mu`. -/
def sqDev (X : Mat N C) (mu : Vc C) : Mat N C :=
  fun i => (X i - mu (ix1 (n := C) (i 1))) * (X i - mu (ix1 (n := C) (i 1)))

/-- Every column centred, scaled by the reciprocal root of its variance plus `eps`, by `gamma`, shifted by `beta`,
    and cut at zero. -/
def bnRelu (eps : EReal) (X : Mat N C) (mu var gamma beta : Vc C) : Mat N C :=
  fun i => max (((X i - mu (ix1 (n := C) (i 1))) * Ideal.rsqrt (var (ix1 (n := C) (i 1)) + eps))
    * gamma (ix1 (n := C) (i 1)) + beta (ix1 (n := C) (i 1))) 0

/-- The one row of a one-row array, as a vector. -/
def rowVec (B : Mat 1 C) : Vc C := fun j => B (ix2 (0 : Fin 1) (n1 := C) (j 0))

/-- A vector laid along every row. -/
def vrows {M : ℕ} (b : Vc C) : Mat M C := rows (M := M) fun c => b (ix1 c)

/-- The first layer before normalisation: aggregated features and own features through their weights, plus the
    bias (the bias added last). -/
def layer1 {K : ℕ} (A X : Mat N K) (Wl Wr : Mat K C) (b : Vc C) : Mat N C :=
  plus (plus (mm A Wl) (mm X Wr)) (vrows b)

/-- The hidden features: the first layer, normalised per column with its own column means and variances, cut at zero. -/
def hidden {K : ℕ} (cN eps : EReal) (A X : Mat N K) (Wl Wr : Mat K C) (b gamma beta : Vc C) : Mat N C :=
  bnRelu eps (layer1 A X Wl Wr b) (colMean cN (layer1 A X Wl Wr b))
    (colMean cN (sqDev (layer1 A X Wl Wr b) (colMean cN (layer1 A X Wl Wr b)))) gamma beta

/-- The second layer with the weight applied BEFORE the aggregation, the bias added last. -/
def outPre {K : ℕ} (hN : 0 < N) (src dst : ICol R) (d : Vc N) (H : Mat N K) (Wl Wr : Mat K C) (b : Vc C) : Mat N C :=
  plus (plus (meanAgg hN src dst d (mm H Wl)) (mm H Wr)) (vrows b)

/-- The second layer with the weight applied AFTER the aggregation, the bias added before the own-feature term. -/
def outPost {K : ℕ} (hN : 0 < N) (src dst : ICol R) (d : Vc N) (H : Mat N K) (Wl Wr : Mat K C) (b : Vc C) : Mat N C :=
  plus (plus (mm (meanAgg hN src dst d H) Wl) (vrows b)) (mm H Wr)

end Cert.Sage

end
-- ==== Proof.PreFin.lean ====
/-
  From the printed finiteness predicate to "every entry is a real": the predicate is a conjunction, one conjunct per
  float array, each saying that every entry's absolute value is below +∞; an extended real whose absolute value is
  below +∞ is neither infinity, so it is a real.
-/
import proofs.«103092_j3092376453137_2_alg».proof.Proof.Gen.Pre_finite_inputs
import proofs.«103092_j3092376453137_2_alg».proof.Proof.LibSageSpec
import Idealize.ShloMosaic.Lib.ReduceAll
import Idealize.ShloMosaic.PureOps.Ideal.Laws

noncomputable section

namespace Cert.Sage

open Idealize.ShloMosaic Idealize.ShloMosaic.ValueIdx Cert.Pre_finite_inputs

/-- The rank-zero shape has one index. -/
instance subsingleton_scalarIdx : Subsingleton S_.Idx := ⟨fun a b => funext fun d => d.elim0⟩

/-- The pattern with all exponent bits set and no fraction bit denotes +∞. -/
theorem lit_inf : Ideal.ofBits .f32 0x7F800000#32 = ⊤ := by simp [Ideal.ofBits, Ideal.ieee]

/-- An extended real whose absolute value (the greater of it and its negation) is below +∞ is a real: at -∞ the
    negation is +∞, at +∞ the value itself is. -/
theorem real_of_abs_lt_top (x : EReal) (h : max x (-x) < ⊤) : ∃ r : ℝ, x = (r : EReal) := by
  induction x with
  | bot => exact absurd h (by simp)
  | coe r => exact ⟨r, rfl⟩
  | top => exact absurd h (by simp)

/-- ONE CONJUNCT READ BACK: if the conjunction over all entries of "|x| < +∞" came out true, every entry of x is a
    real. -/
theorem isFin_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
      (cmpf .olt (Host.absf x) (broadcastInDim s ![] hb (constant (F := Ideal) S_ .f32 0x7F800000#32)))
      init hr hu ix0 = 1#1) : IsFin x := by
  intro i
  have e := Host.reduce_andi_all _ init hr hu ix0 h i
  have e' : BitVec.ofBool (decide (max (x i) (-(x i)) < Ideal.ofBits .f32 0x7F800000#32)) = 1#1 := e
  rw [lit_inf] at e'
  refine real_of_abs_lt_top (x i) ?_
  by_contra hn
  rw [decide_eq_false hn] at e'
  exact absurd e' (by decide)

/-- THE PRECONDITION GIVES REAL INPUTS: the printed predicate is the conjunction, array by array, of the conjunct
    above; it is true, so every float array has real entries. -/
theorem fin_of_pre [Facts] (x : FVec Ideal S50000x64 .f32) (ei : IVec S2x800000 32) (W1l : FVec Ideal S64x128 .f32)
    (b1 : FVec Ideal S128 .f32) (W1r : FVec Ideal S64x128 .f32) (gamma beta : FVec Ideal S128 .f32)
    (W2l : FVec Ideal S128x64 .f32) (b2 : FVec Ideal S64 .f32) (W2r : FVec Ideal S128x64 .f32)
    (h : fn (F := Ideal) x ei W1l b1 W1r gamma beta W2l b2 W2r = fun _ => 1#1) :
    IsFin x ∧ IsFin W1l ∧ IsFin b1 ∧ IsFin W1r ∧ IsFin gamma ∧ IsFin beta ∧ IsFin W2l ∧ IsFin b2 ∧ IsFin W2r := by
  have h0 := congrFun h ix0
  dsimp only [fn, fn_part1, fn_part2] at h0
  obtain ⟨h8, e9⟩ := IntOp.andi_eq_one.1 h0
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨e1, e2⟩ := IntOp.andi_eq_one.1 h2
  exact ⟨isFin_of_all x _ _ _ _ e1, isFin_of_all W1l _ _ _ _ e2, isFin_of_all b1 _ _ _ _ e3,
    isFin_of_all W1r _ _ _ _ e4, isFin_of_all gamma _ _ _ _ e5, isFin_of_all beta _ _ _ _ e6,
    isFin_of_all W2l _ _ _ _ e7, isFin_of_all b2 _ _ _ _ e8, isFin_of_all W2r _ _ _ _ e9⟩

end Cert.Sage

end
-- ==== Proof.KernelFold.lean ====
/-
  The idealized kernel's buffers at each boundary between host stretches and regions, read back to the launch arrays:
  the edge columns (source indices wrapped when negative, destination indices), the reciprocal degree, the first
  aggregation, the column statistics of the first layer, and the second aggregation, each as the host operations' own
  term of what the previous boundary holds; a buffer no later operation writes keeps its contents.
-/
import proofs.«103092_j3092376453137_2_alg».proof.Proof.Gen.KernelIdeal.Frame
import Idealize.ShloMosaic.PureOps.Ideal

set_option maxRecDepth 16384
set_option maxHeartbeats 8000000

noncomputable section

namespace Cert.KernelIdeal.Fold

open Cert.KernelIdeal Cert.KernelIdeal.Gen
open Idealize.ShloMosaic Idealize.ShloMosaic.TcCoe Idealize.ShloMosaic.StableHlo

/-! ## The host chains as functions -/

/-- Row 0 of the edge array as a vector: the source indices. -/
def srcVec (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

/-- Row 1 of the edge array as a vector: the destination indices. -/
def dstVec (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- The column of start indices a gather takes: a negative source index wrapped by the table's height. -/
def srcCol (v1 : (⟨S800000, .i32⟩ : BufTy).Contents (Elt Ideal)) : (⟨S800000x1, .i32⟩ : BufTy).Contents (Elt Ideal) :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The column of start indices a scatter takes. -/
def dstCol (v3 : (⟨S800000, .i32⟩ : BufTy).Contents (Elt Ideal)) : (⟨S800000x1, .i32⟩ : BufTy).Contents (Elt Ideal) :=
  broadcastInDim S800000x1 ![0] bcast_S800000_S800000x1_0 v3

/-- The in-degree of every node: ones summed per destination. -/
def deg (v3 : (⟨S800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32)) (dstCol v3)
    (broadcastInDim S800000 ![] bcast_S_S800000 (constant (F := Ideal) S_ .f32 0x3F800000#32))

/-- The reciprocal degree where the degree is positive, zero elsewhere. -/
def degInv (v3 : (⟨S800000, .i32⟩ : BufTy).Contents (Elt Ideal)) : (⟨S50000, .f32⟩ : BufTy).Contents (Elt Ideal) :=
  select (cmpf (F := Ideal) .ogt (deg v3) (broadcastInDim S50000 ![] bcast_S_S50000 (constant (F := Ideal) S_ .f32 0x00000000#32)))
    (Host.divf (F := Ideal) (broadcastInDim S50000 ![] bcast_S_S50000 (constant (F := Ideal) S_ .f32 0x3F800000#32))
      (maximumf (deg v3) (broadcastInDim S50000 ![] bcast_S_S50000 (constant (F := Ideal) S_ .f32 0x3F800000#32))))
    (broadcastInDim S50000 ![] bcast_S_S50000 (constant (F := Ideal) S_ .f32 0x00000000#32))

/-- The mean aggregation as the host spells it: rows gathered, summed per destination into zeros, scaled by `d`. -/
def aggHost (X : (⟨S50000x64, .f32⟩ : BufTy).Contents (Elt Ideal)) (v1 v3 : (⟨S800000, .i32⟩ : BufTy).Contents (Elt Ideal)) (d : (⟨S50000, .f32⟩ : BufTy).Contents (Elt Ideal)) : (⟨S50000x64, .f32⟩ : BufTy).Contents (Elt Ideal) :=
  mulf (F := Ideal) (Host.scatterAdd (F := Ideal) scatter_S50000x64_S800000x1_S800000x64_1_0_0_1
      (broadcastInDim S50000x64 ![] bcast_S_S50000x64 (constant (F := Ideal) S_ .f32 0x00000000#32)) (dstCol v3)
      (Host.gather gather_S50000x64_S800000x1_S800000x64_1_0_n_n_0_1_164 X (srcCol v1)))
    (broadcastInDim S50000x64 ![0, 1] bcast_S50000x1_S50000x64_0_1 (broadcastInDim S50000x1 ![0] bcast_S50000_S50000x1_0 d))

/-- The column means as the host spells them: the sum from zero over the rows, divided by the broadcast 50000. -/
def meanHost (H : (⟨S50000x128, .f32⟩ : BufTy).Contents (Elt Ideal)) : (⟨S128, .f32⟩ : BufTy).Contents (Elt Ideal) :=
  Host.divf (F := Ideal) (Host.reduceAdd (F := Ideal) H (constant (F := Ideal) S_ .f32 0x00000000#32) reducesTo_S50000x128_S128_d0 h_S_)
    (broadcastInDim S128 ![] bcast_S_S128 (constant (F := Ideal) S_ .f32 0x47435000#32))

/-- The squared deviations from the column means as the host spells them. -/
def sqDevHost (H : FVec Ideal S50000x128 .f32) (mu : FVec Ideal S128 .f32) : FVec Ideal S50000x128 .f32 :=
  mulf (subf H (broadcastInDim S50000x128 ![0, 1] bcast_S1x128_S50000x128_0_1 (broadcastInDim S1x128 ![1] bcast_S128_S1x128_1 mu)))
    (subf H (broadcastInDim S50000x128 ![0, 1] bcast_S1x128_S50000x128_0_1 (broadcastInDim S1x128 ![1] bcast_S128_S1x128_1 mu)))

/-! ## One lemma per host stretch, from any contents `Wv` of the buffers -/

/-! ### The first stretch: the edge rows, the degree, its comparison with zero and its guarded reciprocal -/

theorem s0_v1 (Wv : Valuation τ sig (Elt Ideal)) : StableHlo.after hostOps0 Wv (Proc.devRef .tc main_v1) = srcVec (Wv (Proc.devRef .tc main_arg1)) := by
  after_results_simp
  rfl
theorem s0_v3 (Wv : Valuation τ sig (Elt Ideal)) : StableHlo.after hostOps0 Wv (Proc.devRef .tc main_v3) = dstVec (Wv (Proc.devRef .tc main_arg1)) := by
  after_results_simp
  rfl
theorem s0_v9 (Wv : Valuation τ sig (Elt Ideal)) : StableHlo.after hostOps0 Wv (Proc.devRef .tc main_v9)
    = cmpf (F := Ideal) .ogt (deg (dstVec (Wv (Proc.devRef .tc main_arg1)))) (broadcastInDim S50000 ![] bcast_S_S50000 (constant (F := Ideal) S_ .f32 0x00000000#32)) := by
  after_results_simp
  rfl
theorem s0_v13 (Wv : Valuation τ sig (Elt Ideal)) : StableHlo.after hostOps0 Wv (Proc.devRef .tc main_v13)
    = Host.divf (F := Ideal) (broadcastInDim S50000 ![] bcast_S_S50000 (constant (F := Ideal) S_ .f32 0x3F800000#32))
        (maximumf (deg (dstVec (Wv (Proc.devRef .tc main_arg1)))) (broadcastInDim S50000 ![] bcast_S_S50000 (constant (F := Ideal) S_ .f32 0x3F800000#32))) := by
  after_results_simp
  rfl
theorem s0_cst4 (Wv : Valuation τ sig (Elt Ideal)) : StableHlo.after hostOps0 Wv (Proc.devRef .tc main_cst_4) = constant (F := Ideal) S_ .f32 0x00000000#32 := by
  after_results_simp
theorem s0_arg0 (Wv : Valuation τ sig (Elt Ideal)) : StableHlo.after hostOps0 Wv (Proc.devRef .tc main_arg0) = Wv (Proc.devRef .tc main_arg0) := by
  after_results
theorem s0_arg1 (Wv : Valuation τ sig (Elt Ideal)) : StableHlo.after hostOps0 Wv (Proc.devRef .tc main_arg1) = Wv (Proc.devRef .tc main_arg1) := by
  after_results
theorem s0_arg2 (Wv : Valuation τ sig (Elt Ideal)) : StableHlo.after hostOps0 Wv (Proc.devRef .tc main_arg2) = Wv (Proc.devRef .tc main_arg2) := by
  after_results
theorem s0_arg3 (Wv : Valuation τ sig (Elt Ideal)) : StableHlo.after hostOps0 Wv (Proc.devRef .tc main_arg3) = Wv (Proc.devRef .tc main_arg3) := by
  after_results
theorem s0_arg4 (Wv : Valuation τ sig (Elt Ideal)) : StableHlo.after hostOps0 Wv (Proc.devRef .tc main_arg4) = Wv (Proc.devRef .tc main_arg4) := by
  after_results
theorem s0_arg5 (Wv : Valuation τ sig (Elt Ideal)) : StableHlo.after hostOps0 Wv (Proc.devRef .tc main_arg5) = Wv (Proc.devRef .tc main_arg5) := by
  after_results
theorem s0_arg6 (Wv : Valuation τ sig (Elt Ideal)) : StableHlo.after hostOps0 Wv (Proc.devRef .tc main_arg6) = Wv (Proc.devRef .tc main_arg6) := by
  after_results
theorem s0_arg7 (Wv : Valuation τ sig (Elt Ideal)) : StableHlo.after hostOps0 Wv (Proc.devRef .tc main_arg7) = Wv (Proc.devRef .tc main_arg7) := by
  after_results
theorem s0_arg8 (Wv : Valuation τ sig (Elt Ideal)) : StableHlo.after hostOps0 Wv (Proc.devRef .tc main_arg8) = Wv (Proc.devRef .tc main_arg8) := by
  after_results
theorem s0_arg9 (Wv : Valuation τ sig (Elt Ideal)) : StableHlo.after hostOps0 Wv (Proc.devRef .tc main_arg9) = Wv (Proc.devRef .tc main_arg9) := by
  after_results

/-! ### The second stretch (the outlined select): the reciprocal degree where the degree is positive -/

theorem s1_v14 (Wv : Valuation τ sig (Elt Ideal)) : StableHlo.after hostOps0_1 Wv (Proc.devRef .tc main_v14)
    = select (show IVec S50000 1 from Wv (Proc.devRef .tc main_v9)) (show FVec Ideal S50000 .f32 from Wv (Proc.devRef .tc main_v13))
        (broadcastInDim S50000 ![] bcast_S_S50000 (show FVec Ideal S_ .f32 from Wv (Proc.devRef .tc main_cst_4))) := by
  after_results_simp
  rfl
theorem s1_arg0 (Wv : Valuation τ sig (Elt Ideal)) : StableHlo.after hostOps0_1 Wv (Proc.devRef .tc main_arg0) = Wv (Proc.devRef .tc main_arg0) := by
  after_results
theorem s1_arg1 (Wv : Valuation τ sig (Elt Ideal)) : StableHlo.after hostOps0_1 Wv (Proc.devRef .tc main_arg1) = Wv (Proc.devRef .tc main_arg1) := by
  after_results
theorem s1_arg2 (Wv : Valuation τ sig (Elt Ideal)) : StableHlo.after hostOps0_1 Wv (Proc.devRef .tc main_arg2) = Wv (Proc.devRef .tc main_arg2) := by
  after_results
theorem s1_arg3 (Wv : Valuation τ sig (Elt Ideal)) : StableHlo.after hostOps0_1 Wv (Proc.devRef .tc main_arg3) = Wv (Proc.devRef .tc main_arg3) := by
  after_results
theorem s1_arg4 (Wv : Valuation τ sig (Elt Ideal)) : StableHlo.after hostOps0_1 Wv (Proc.devRef .tc main_arg4) = Wv (Proc.devRef .tc main_arg4) := by
  after_results
theorem s1_arg5 (Wv : Valuation τ sig (Elt Ideal)) : StableHlo.after hostOps0_1 Wv (Proc.devRef .tc main_arg5) = Wv (Proc.devRef .tc main_arg5) := by
  after_results
theorem s1_arg6 (Wv : Valuation τ sig (Elt Ideal)) : StableHlo.after hostOps0_1 Wv (Proc.devRef .tc main_arg6) = Wv (Proc.devRef .tc main_arg6) := by
  after_results
theorem s1_arg7 (Wv : Valuation τ sig (Elt Ideal)) : StableHlo.after hostOps0_1 Wv (Proc.devRef .tc main_arg7) = Wv (Proc.devRef .tc main_arg7) := by
  after_results
theorem s1_arg8 (Wv : Valuation τ sig (Elt Ideal)) : StableHlo.after hostOps0_1 Wv (Proc.devRef .tc main_arg8) = Wv (Proc.devRef .tc main_arg8) := by
  after_results
theorem s1_arg9 (Wv : Valuation τ sig (Elt Ideal)) : StableHlo.after hostOps0_1 Wv (Proc.devRef .tc main_arg9) = Wv (Proc.devRef .tc main_arg9) := by
  after_results
theorem s1_v1 (Wv : Valuation τ sig (Elt Ideal)) : StableHlo.after hostOps0_1 Wv (Proc.devRef .tc main_v1) = Wv (Proc.devRef .tc main_v1) := by
  after_results
theorem s1_v3 (Wv : Valuation τ sig (Elt Ideal)) : StableHlo.after hostOps0_1 Wv (Proc.devRef .tc main_v3) = Wv (Proc.devRef .tc main_v3) := by
  after_results

/-! ### The third stretch: the first aggregation and the first bias as a row -/

theorem s2_v27 (Wv : Valuation τ sig (Elt Ideal)) : StableHlo.after hostOps0_2 Wv (Proc.devRef .tc main_v27)
    = aggHost (Wv (Proc.devRef .tc main_arg0)) (Wv (Proc.devRef .tc main_v1)) (Wv (Proc.devRef .tc main_v3)) (Wv (Proc.devRef .tc main_v14)) := by
  after_results_simp
  rfl
theorem s2_v28 (Wv : Valuation τ sig (Elt Ideal)) : StableHlo.after hostOps0_2 Wv (Proc.devRef .tc main_v28)
    = shapeCast S1x128 (show FVec Ideal S128 .f32 from Wv (Proc.devRef .tc main_arg3)) shapeCasts_S128_S1x128 := by
  after_results_simp
  rfl
theorem s2_arg0 (Wv : Valuation τ sig (Elt Ideal)) : StableHlo.after hostOps0_2 Wv (Proc.devRef .tc main_arg0) = Wv (Proc.devRef .tc main_arg0) := by
  after_results
theorem s2_arg1 (Wv : Valuation τ sig (Elt Ideal)) : StableHlo.after hostOps0_2 Wv (Proc.devRef .tc main_arg1) = Wv (Proc.devRef .tc main_arg1) := by
  after_results
theorem s2_arg2 (Wv : Valuation τ sig (Elt Ideal)) : StableHlo.after hostOps0_2 Wv (Proc.devRef .tc main_arg2) = Wv (Proc.devRef .tc main_arg2) := by
  after_results
theorem s2_arg3 (Wv : Valuation τ sig (Elt Ideal)) : StableHlo.after hostOps0_2 Wv (Proc.devRef .tc main_arg3) = Wv (Proc.devRef .tc main_arg3) := by
  after_results
theorem s2_arg4 (Wv : Valuation τ sig (Elt Ideal)) : StableHlo.after hostOps0_2 Wv (Proc.devRef .tc main_arg4) = Wv (Proc.devRef .tc main_arg4) := by
  after_results
theorem s2_arg5 (Wv : Valuation τ sig (Elt Ideal)) : StableHlo.after hostOps0_2 Wv (Proc.devRef .tc main_arg5) = Wv (Proc.devRef .tc main_arg5) := by
  after_results
theorem s2_arg6 (Wv : Valuation τ sig (Elt Ideal)) : StableHlo.after hostOps0_2 Wv (Proc.devRef .tc main_arg6) = Wv (Proc.devRef .tc main_arg6) := by
  after_results
theorem s2_arg7 (Wv : Valuation τ sig (Elt Ideal)) : StableHlo.after hostOps0_2 Wv (Proc.devRef .tc main_arg7) = Wv (Proc.devRef .tc main_arg7) := by
  after_results
theorem s2_arg8 (Wv : Valuation τ sig (Elt Ideal)) : StableHlo.after hostOps0_2 Wv (Proc.devRef .tc main_arg8) = Wv (Proc.devRef .tc main_arg8) := by
  after_results
theorem s2_arg9 (Wv : Valuation τ sig (Elt Ideal)) : StableHlo.after hostOps0_2 Wv (Proc.devRef .tc main_arg9) = Wv (Proc.devRef .tc main_arg9) := by
  after_results
theorem s2_v1 (Wv : Valuation τ sig (Elt Ideal)) : StableHlo.after hostOps0_2 Wv (Proc.devRef .tc main_v1) = Wv (Proc.devRef .tc main_v1) := by
  after_results
theorem s2_v3 (Wv : Valuation τ sig (Elt Ideal)) : StableHlo.after hostOps0_2 Wv (Proc.devRef .tc main_v3) = Wv (Proc.devRef .tc main_v3) := by
  after_results
theorem s2_v14 (Wv : Valuation τ sig (Elt Ideal)) : StableHlo.after hostOps0_2 Wv (Proc.devRef .tc main_v14) = Wv (Proc.devRef .tc main_v14) := by
  after_results

/-! ### The stretch between the first two regions: the column statistics and the normalisation's parameters as rows -/

theorem s3_v40 (Wv : Valuation τ sig (Elt Ideal)) : StableHlo.after hostOps1 Wv (Proc.devRef .tc main_v40)
    = shapeCast S1x128 (meanHost (Wv (Proc.devRef .tc main_v29))) shapeCasts_S128_S1x128 := by
  after_results_simp
  rfl
theorem s3_v41 (Wv : Valuation τ sig (Elt Ideal)) : StableHlo.after hostOps1 Wv (Proc.devRef .tc main_v41)
    = shapeCast S1x128 (meanHost (sqDevHost (Wv (Proc.devRef .tc main_v29)) (meanHost (Wv (Proc.devRef .tc main_v29))))) shapeCasts_S128_S1x128 := by
  after_results_simp
  rfl
theorem s3_v42 (Wv : Valuation τ sig (Elt Ideal)) : StableHlo.after hostOps1 Wv (Proc.devRef .tc main_v42)
    = shapeCast S1x128 (show FVec Ideal S128 .f32 from Wv (Proc.devRef .tc main_arg5)) shapeCasts_S128_S1x128 := by
  after_results_simp
  rfl
theorem s3_v43 (Wv : Valuation τ sig (Elt Ideal)) : StableHlo.after hostOps1 Wv (Proc.devRef .tc main_v43)
    = shapeCast S1x128 (show FVec Ideal S128 .f32 from Wv (Proc.devRef .tc main_arg6)) shapeCasts_S128_S1x128 := by
  after_results_simp
  rfl
theorem s3_v29 (Wv : Valuation τ sig (Elt Ideal)) : StableHlo.after hostOps1 Wv (Proc.devRef .tc main_v29) = Wv (Proc.devRef .tc main_v29) := by
  after_results
theorem s3_arg7 (Wv : Valuation τ sig (Elt Ideal)) : StableHlo.after hostOps1 Wv (Proc.devRef .tc main_arg7) = Wv (Proc.devRef .tc main_arg7) := by
  after_results
theorem s3_arg8 (Wv : Valuation τ sig (Elt Ideal)) : StableHlo.after hostOps1 Wv (Proc.devRef .tc main_arg8) = Wv (Proc.devRef .tc main_arg8) := by
  after_results
theorem s3_arg9 (Wv : Valuation τ sig (Elt Ideal)) : StableHlo.after hostOps1 Wv (Proc.devRef .tc main_arg9) = Wv (Proc.devRef .tc main_arg9) := by
  after_results
theorem s3_v1 (Wv : Valuation τ sig (Elt Ideal)) : StableHlo.after hostOps1 Wv (Proc.devRef .tc main_v1) = Wv (Proc.devRef .tc main_v1) := by
  after_results
theorem s3_v3 (Wv : Valuation τ sig (Elt Ideal)) : StableHlo.after hostOps1 Wv (Proc.devRef .tc main_v3) = Wv (Proc.devRef .tc main_v3) := by
  after_results
theorem s3_v14 (Wv : Valuation τ sig (Elt Ideal)) : StableHlo.after hostOps1 Wv (Proc.devRef .tc main_v14) = Wv (Proc.devRef .tc main_v14) := by
  after_results

/-! ### The stretch between the last two regions: the second aggregation and the second bias as a row -/

theorem s4_v57 (Wv : Valuation τ sig (Elt Ideal)) : StableHlo.after hostOps2 Wv (Proc.devRef .tc main_v57)
    = aggHost (Wv (Proc.devRef .tc main_v44_1)) (Wv (Proc.devRef .tc main_v1)) (Wv (Proc.devRef .tc main_v3)) (Wv (Proc.devRef .tc main_v14)) := by
  after_results_simp
  rfl
theorem s4_v58 (Wv : Valuation τ sig (Elt Ideal)) : StableHlo.after hostOps2 Wv (Proc.devRef .tc main_v58)
    = shapeCast S1x64 (show FVec Ideal S64 .f32 from Wv (Proc.devRef .tc main_arg8)) shapeCasts_S64_S1x64 := by
  after_results_simp
  rfl
theorem s4_v44_0 (Wv : Valuation τ sig (Elt Ideal)) : StableHlo.after hostOps2 Wv (Proc.devRef .tc main_v44_0) = Wv (Proc.devRef .tc main_v44_0) := by
  after_results
theorem s4_arg9 (Wv : Valuation τ sig (Elt Ideal)) : StableHlo.after hostOps2 Wv (Proc.devRef .tc main_arg9) = Wv (Proc.devRef .tc main_arg9) := by
  after_results

end Cert.KernelIdeal.Fold

end
-- ==== Proof.KernelPay.lean ====
/-
  The three kernel bodies' arithmetic, each as one function of the blocks it loads, over the extended reals: a change
  of float format is the identity, a product accumulated into a zero splat is the matrix product, a one-row array
  broadcast down the rows lays its row along every row, and the normalisation body is the centred, scaled, shifted
  entry cut at zero.
-/
import proofs.«103092_j3092376453137_2_alg».proof.Proof.Gen.KernelIdeal.Skeleton
import proofs.«103092_j3092376453137_2_alg».proof.Proof.LibSageSpec

noncomputable section

namespace Cert.KernelIdeal.Pay

open Cert.KernelIdeal Cert.KernelIdeal.Gen
open Idealize.ShloMosaic Idealize.ShloMosaic.ValueIdx Cert.DenseLib Cert.LayoutLib Cert.Sage

/-- The first body: both products, then the bias row along every row. -/
theorem pay0 (x0 x3 : Vec Ideal S5000x64 .f32) (x5 x7 : Vec Ideal S64x128 .f32) (x12 : Vec Ideal S1x128 .f32) :
    k0_pay1 (F := Ideal) x0 x3 x5 x7 x12
      = plus (plus (mm (M := 5000) (K := 64) (N := 128) x0 x5) (mm (M := 5000) (K := 64) (N := 128) x3 x7))
          (vrows (M := 5000) (rowVec (C := 128) x12)) := by
  unfold k0_pay1
  simp only [shapeCast_self]
  rw [show (truncf .bf16 x0 bitsLt_bf16_f32 : FVec Ideal S5000x64 .bf16) = x0 from rfl,
    show (truncf .bf16 x3 bitsLt_bf16_f32 : FVec Ideal S5000x64 .bf16) = x3 from rfl,
    show (truncf .bf16 x5 bitsLt_bf16_f32 : FVec Ideal S64x128 .bf16) = x5 from rfl,
    show (truncf .bf16 x7 bitsLt_bf16_f32 : FVec Ideal S64x128 .bf16) = x7 from rfl]
  rw [matmul_eq_mm (M := 5000) (K := 64) (N := 128) dot_S5000x64_S64x128_S5000x128_1_0_0_1_n_n rfl x0 x5,
    matmul_eq_mm (M := 5000) (K := 64) (N := 128) dot_S5000x64_S64x128_S5000x128_1_0_0_1_n_n rfl x3 x7,
    broadcastTo_eq_rows (M := 5000) (N := 128)]
  rfl

/-- The second body's first output: every entry centred by its column's mean, scaled by the reciprocal root of the
    column's variance plus the small constant, by gamma, shifted by beta, cut at zero. -/
theorem pay1 (v0 : Vec Ideal S5000x128 .f32) (v2 v7 v13 v17 : Vec Ideal S1x128 .f32) :
    k1_pay1 (F := Ideal) v0 v2 v7 v13 v17
      = bnRelu (N := 5000) (C := 128) (Ideal.ofBits .f32 0x3727C5AC#32) v0 (rowVec v7) (rowVec v2) (rowVec v13) (rowVec v17) := by
  funext i
  obtain ⟨p, q, rfl⟩ : ∃ (p : Fin 5000) (q : Fin 128), i = ix2 p q := ⟨i 0, i 1, eq_ix2 i⟩
  unfold k1_pay1
  simp only [shapeCast_self]
  show max ((((v0 (ix2 p q) - broadcastTo S5000x128 v7 broadcasts_S1x128_S5000x128 (ix2 p q))
      * broadcastTo S5000x128 (rsqrt (addf v2 (broadcast S1x128 (Scalar.ofBits (F := Ideal) .f32 0x3727C5AC#32)))) broadcasts_S1x128_S5000x128 (ix2 p q))
      * broadcastTo S5000x128 v13 broadcasts_S1x128_S5000x128 (ix2 p q))
      + broadcastTo S5000x128 v17 broadcasts_S1x128_S5000x128 (ix2 p q)) (Ideal.ofBits .f32 0x00000000#32) = _
  rw [broadcastTo_1b_ab_apply, broadcastTo_1b_ab_apply, broadcastTo_1b_ab_apply, broadcastTo_1b_ab_apply, Ideal.ofBits_zero_f32]
  rfl

/-- The second body's second output: the first output through the weight. -/
theorem pay2 (v0 : Vec Ideal S5000x128 .f32) (v2 v7 v13 v17 : Vec Ideal S1x128 .f32) (v25 : Vec Ideal S128x64 .f32) :
    k1_pay2 (F := Ideal) v0 v2 v7 v13 v17 v25 = mm (M := 5000) (K := 128) (N := 64) (k1_pay1 (F := Ideal) v0 v2 v7 v13 v17) v25 := by
  unfold k1_pay2
  rw [show (truncf .bf16 (k1_pay1 (F := Ideal) v0 v2 v7 v13 v17) bitsLt_bf16_f32 : FVec Ideal S5000x128 .bf16) = k1_pay1 (F := Ideal) v0 v2 v7 v13 v17 from rfl,
    show (truncf .bf16 v25 bitsLt_bf16_f32 : FVec Ideal S128x64 .bf16) = v25 from rfl]
  exact matmul_eq_mm (M := 5000) (K := 128) (N := 64) dot_S5000x128_S128x64_S5000x64_1_0_0_1_n_n rfl _ _

/-- The third body: the aggregated block plus the own features through the weight, then the bias row. -/
theorem pay3 (v0 : Vec Ideal S5000x64 .f32) (v2 : Vec Ideal S5000x128 .f32) (v5 : Vec Ideal S128x64 .f32) (v9 : Vec Ideal S1x64 .f32) :
    k2_pay1 (F := Ideal) v0 v2 v5 v9
      = plus (plus v0 (mm (M := 5000) (K := 128) (N := 64) v2 v5)) (vrows (M := 5000) (rowVec (C := 64) v9)) := by
  unfold k2_pay1
  simp only [shapeCast_self]
  rw [show (truncf .bf16 v2 bitsLt_bf16_f32 : FVec Ideal S5000x128 .bf16) = v2 from rfl,
    show (truncf .bf16 v5 bitsLt_bf16_f32 : FVec Ideal S128x64 .bf16) = v5 from rfl]
  rw [matmul_eq_mm (M := 5000) (K := 128) (N := 64) dot_S5000x128_S128x64_S5000x64_1_0_0_1_n_n rfl v2 v5,
    broadcastTo_eq_rows (M := 5000) (N := 64)]
  rfl

end Cert.KernelIdeal.Pay

end
-- ==== Proof.Region0.lean ====
/-
  The first region's output array as ONE function of the arrays the region finds: its ten row blocks tile the
  50000-row output, block `t` is the body's arithmetic of rows `t · 5000 …` of the two row-blocked inputs and of the
  whole weights and bias row, and a product's row depends on that row of its left operand only — so the array ends
  holding the first layer (aggregated and own features through their weights, plus the bias) of the whole arrays.
-/
import proofs.«103092_j3092376453137_2_alg».proof.Proof.Gen.KernelIdeal.Frame
import proofs.«103092_j3092376453137_2_alg».proof.Proof.KernelPay

set_option maxRecDepth 16384

noncomputable section

namespace Cert.KernelIdeal.Reg0

open Cert.KernelIdeal Cert.KernelIdeal.Gen
open Idealize.ShloMosaic Idealize.ShloMosaic.TcCoe Idealize.ShloMosaic.ValueIdx Cert.DenseLib Cert.Sage
open Idealize.ShloMosaic.Pipeline (Dat)

theorem hz : (![0, 0] : Fin 2 → Nat) = fun _ => 0 := funext fun a => by fin_cases a <;> rfl

/-- The printed index maps, decided over the grid: a row-blocked window's block index is the point's number on the
    rows and zero on the columns; a whole-array window's is zero on both. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt_ten (t : Fin cfg0.N) : t.val < 10 := lt_of_lt_of_eq t.isLt N_0

/-- Where window 0's block at point `t` sits in its array: row `p` of the block is row `t · 5000 + p`. -/
theorem emb_0 (t : Fin cfg0.N) (p : Fin 5000) (k : Fin 64) :
    ((cfg0.win 0).blk t).view.emb (ix2 p k : S5000x64.Idx) = (ix2 (⟨t.val * 5000 + p.val, by have := lt_ten t; have := p.isLt; omega⟩ : Fin 50000) k : S50000x64.Idx) := by
  funext a; apply Fin.ext
  match a with
  | ⟨0, _⟩ => show win0_0.index t (0 : Fin 2) * 5000 + 1 * p.val = t.val * 5000 + p.val; rw [(idx_facts t).1]; omega
  | ⟨1, _⟩ => show win0_0.index t (1 : Fin 2) * 64 + 1 * k.val = k.val; rw [(idx_facts t).2.1]; omega

theorem blk_0 (V : (c : Dev nD) → (b : Ref sig .tc) → Buf (Elt Ideal) ((c : Thread nD τ).loc b)) (c : Dev nD) (t : Fin cfg0.N) (p : Fin 5000) (k : Fin 64) :
    iblk0 (F := Ideal) V c 0 t (ix2 p k : S5000x64.Idx) = V c main_v27 (ix2 (⟨t.val * 5000 + p.val, by have := lt_ten t; have := p.isLt; omega⟩ : Fin 50000) k : S50000x64.Idx) := by
  show V c main_v27 (((cfg0.win 0).blk t).view.emb (ix2 p k : S5000x64.Idx)) = _
  rw [emb_0]

/-- Where window 1's block at point `t` sits in its array: row `p` of the block is row `t · 5000 + p`. -/
theorem emb_1 (t : Fin cfg0.N) (p : Fin 5000) (k : Fin 64) :
    ((cfg0.win 1).blk t).view.emb (ix2 p k : S5000x64.Idx) = (ix2 (⟨t.val * 5000 + p.val, by have := lt_ten t; have := p.isLt; omega⟩ : Fin 50000) k : S50000x64.Idx) := by
  funext a; apply Fin.ext
  match a with
  | ⟨0, _⟩ => show win0_1.index t (0 : Fin 2) * 5000 + 1 * p.val = t.val * 5000 + p.val; rw [(idx_facts t).2.2.1]; omega
  | ⟨1, _⟩ => show win0_1.index t (1 : Fin 2) * 64 + 1 * k.val = k.val; rw [(idx_facts t).2.2.2.1]; omega

theorem blk_1 (V : (c : Dev nD) → (b : Ref sig .tc) → Buf (Elt Ideal) ((c : Thread nD τ).loc b)) (c : Dev nD) (t : Fin cfg0.N) (p : Fin 5000) (k : Fin 64) :
    iblk0 (F := Ideal) V c 1 t (ix2 p k : S5000x64.Idx) = V c main_arg0 (ix2 (⟨t.val * 5000 + p.val, by have := lt_ten t; have := p.isLt; omega⟩ : Fin 50000) k : S50000x64.Idx) := by
  show V c main_arg0 (((cfg0.win 1).blk t).view.emb (ix2 p k : S5000x64.Idx)) = _
  rw [emb_1]

/-- Window 2 stages its whole array at every point. -/
theorem blk_2 (V : (c : Dev nD) → (b : Ref sig .tc) → Buf (Elt Ideal) ((c : Thread nD τ).loc b)) (c : Dev nD) (t : Fin cfg0.N) :
    (iblk0 (F := Ideal) V c 2 t : S64x128.Idx → EReal) = V c main_arg2 := by
  funext y
  show V c main_arg2 (((cfg0.win 2).blk t).view.emb y) = V c main_arg2 y
  refine congrArg (V c main_arg2) ?_
  funext a; apply Fin.ext
  match a with
  | ⟨0, _⟩ => show win0_2.index t (0 : Fin 2) * 64 + 1 * (y 0).val = (y 0).val; rw [(idx_facts t).2.2.2.2.1]; omega
  | ⟨1, _⟩ => show win0_2.index t (1 : Fin 2) * 128 + 1 * (y 1).val = (y 1).val; rw [(idx_facts t).2.2.2.2.2.1]; omega

/-- Window 3 stages its whole array at every point. -/
theorem blk_3 (V : (c : Dev nD) → (b : Ref sig .tc) → Buf (Elt Ideal) ((c : Thread nD τ).loc b)) (c : Dev nD) (t : Fin cfg0.N) :
    (iblk0 (F := Ideal) V c 3 t : S1x128.Idx → EReal) = V c main_v28 := by
  funext y
  show V c main_v28 (((cfg0.win 3).blk t).view.emb y) = V c main_v28 y
  refine congrArg (V c main_v28) ?_
  funext a; apply Fin.ext
  match a with
  | ⟨0, _⟩ => show win0_3.index t (0 : Fin 2) * 1 + 1 * (y 0).val = (y 0).val; rw [(idx_facts t).2.2.2.2.2.2.1]; omega
  | ⟨1, _⟩ => show win0_3.index t (1 : Fin 2) * 128 + 1 * (y 1).val = (y 1).val; rw [(idx_facts t).2.2.2.2.2.2.2.1]; omega

/-- Window 4 stages its whole array at every point. -/
theorem blk_4 (V : (c : Dev nD) → (b : Ref sig .tc) → Buf (Elt Ideal) ((c : Thread nD τ).loc b)) (c : Dev nD) (t : Fin cfg0.N) :
    (iblk0 (F := Ideal) V c 4 t : S64x128.Idx → EReal) = V c main_arg4 := by
  funext y
  show V c main_arg4 (((cfg0.win 4).blk t).view.emb y) = V c main_arg4 y
  refine congrArg (V c main_arg4) ?_
  funext a; apply Fin.ext
  match a with
  | ⟨0, _⟩ => show win0_4.index t (0 : Fin 2) * 64 + 1 * (y 0).val = (y 0).val; rw [(idx_facts t).2.2.2.2.2.2.2.2.1]; omega
  | ⟨1, _⟩ => show win0_4.index t (1 : Fin 2) * 128 + 1 * (y 1).val = (y 1).val; rw [(idx_facts t).2.2.2.2.2.2.2.2.2.1]; omega

/-- Where window 5's block at point `t` sits in its array: row `p` of the block is row `t · 5000 + p`. -/
theorem emb_5 (t : Fin cfg0.N) (p : Fin 5000) (k : Fin 128) :
    ((cfg0.win 5).blk t).view.emb (ix2 p k : S5000x128.Idx) = (ix2 (⟨t.val * 5000 + p.val, by have := lt_ten t; have := p.isLt; omega⟩ : Fin 50000) k : S50000x128.Idx) := by
  funext a; apply Fin.ext
  match a with
  | ⟨0, _⟩ => show win0_5.index t (0 : Fin 2) * 5000 + 1 * p.val = t.val * 5000 + p.val; rw [(idx_facts t).2.2.2.2.2.2.2.2.2.2.1]; omega
  | ⟨1, _⟩ => show win0_5.index t (1 : Fin 2) * 128 + 1 * k.val = k.val; rw [(idx_facts t).2.2.2.2.2.2.2.2.2.2.2]; omega

/-- An index of the output array is in point `t`'s block iff each coordinate is in the block's range. -/
theorem mem_blk_5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v29).slice (win0_5.rect t)).set ↔ _
  rw [View.set_slice_whole, Rect.mem_set_unit]
  exact Iff.rfl

/-- The ten row blocks tile the output array: row `r` is in the block of point `r / 5000`. -/
theorem cover_5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, lt_of_lt_of_eq (by omega : (i 0).val / 5000 < 10) N_0.symm⟩
  have htv : t.val = (i 0).val / 5000 := rfl
  refine ⟨t, flush0_5 t, ?_⟩
  rw [mem_blk_5]
  have e0 := (idx_facts t).2.2.2.2.2.2.2.2.2.2.1
  have e1 := (idx_facts t).2.2.2.2.2.2.2.2.2.2.2
  intro a
  match a with
  | ⟨0, _⟩ => show win0_5.index t (0 : Fin 2) * 5000 ≤ (i 0).val ∧ (i 0).val < win0_5.index t (0 : Fin 2) * 5000 + 5000; rw [e0, htv]; omega
  | ⟨1, _⟩ => show win0_5.index t (1 : Fin 2) * 128 ≤ (i 1).val ∧ (i 1).val < win0_5.index t (1 : Fin 2) * 128 + 128; rw [e1]; omega

/-- One entry of the body's result, from the rows the block holds. -/
theorem point (A X : Mat 50000 64) (Wl Wr : Mat 64 128) (B : Mat 1 128)
    (x0 x1 : Vec Ideal S5000x64 .f32) (x2 x4 : Vec Ideal S64x128 .f32) (x3 : Vec Ideal S1x128 .f32)
    (n : Fin 50000) (p : Fin 5000)
    (h0 : ∀ k : Fin 64, x0 (ix2 p k) = A (ix2 n k)) (h1 : ∀ k : Fin 64, x1 (ix2 p k) = X (ix2 n k))
    (h2 : x2 = Wl) (h4 : x4 = Wr) (h3 : x3 = B) (q : Fin 128) :
    k0_pay1 (F := Ideal) x0 x1 x2 x4 x3 (ix2 p q) = layer1 A X Wl Wr (rowVec B) (ix2 n q) := by
  subst h2 h4 h3
  rw [Pay.pay0]
  show (mm x0 x2 (ix2 p q) + mm x1 x4 (ix2 p q)) + x3 (ix2 (0 : Fin 1) q)
    = (mm A x2 (ix2 n q) + mm X x4 (ix2 n q)) + x3 (ix2 (0 : Fin 1) q)
  rw [mm_row x0 A x2 p n h0 q, mm_row x1 X x4 p n h1 q]

/-- What point `t` writes back is block `t` of the first layer of the whole arrays. -/
theorem flushed (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (layer1 (V c main_v27) (V c main_arg0) (V c main_arg2) (V c main_arg4) (rowVec (V c main_v28))) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), (j : S5000x128.Idx) = ix2 p q := ⟨j 0, j 1, eq_ix2 j⟩
  refine (point (V c main_v27) (V c main_arg0) (V c main_arg2) (V c main_arg4) (V c main_v28)
    (iblk0 V c 0 t) (iblk0 V c 1 t) (iblk0 V c 2 t) (iblk0 V c 4 t) (iblk0 V c 3 t) (⟨t.val * 5000 + p.val, by have := lt_ten t; have := p.isLt; omega⟩ : Fin 50000) p
    (fun k => blk_0 V c t p k) (fun k => blk_1 V c t p k) (blk_2 V c t) (blk_4 V c t) (blk_3 V c t) q).trans ?_
  show _ = layer1 (V c main_v27) (V c main_arg0) (V c main_arg2) (V c main_arg4) (rowVec (V c main_v28))
    (((cfg0.win 5).blk t).view.emb (ix2 p q : S5000x128.Idx))
  rw [emb_5]

/-- The output array after the region. -/
theorem final (V : (c : Dev nD) → (b : Ref sig .tc) → Buf (Elt Ideal) ((c : Thread nD τ).loc b)) (c : Dev nD) :
    (dat0 (F := Ideal) V c).arrAt 5 cfg0.N
      = layer1 (V c main_v27) (V c main_arg0) (V c main_arg2) (V c main_arg4) (rowVec (V c main_v28)) :=
  (dat0 (F := Ideal) V c).arrAt_eq_of_cover 5 _ (fun t _ => flushed V c t) cover_5

end Cert.KernelIdeal.Reg0

end
-- ==== Proof.Region1.lean ====
/-
  The second region's two output arrays as functions of the arrays the region finds: block `t` of the first is the
  normalisation (centre by the column mean, scale by the reciprocal root of the column variance plus the small
  constant and by gamma, shift by beta, cut at zero) of rows `t · 5000 …` of the input, entry by entry; block `t` of
  the second is that block through the weight, and a product's row depends on that row of its left operand only.
-/
import proofs.«103092_j3092376453137_2_alg».proof.Proof.Gen.KernelIdeal.Frame
import proofs.«103092_j3092376453137_2_alg».proof.Proof.KernelPay

set_option maxRecDepth 16384

noncomputable section

namespace Cert.KernelIdeal.Reg1

open Cert.KernelIdeal Cert.KernelIdeal.Gen
open Idealize.ShloMosaic Idealize.ShloMosaic.TcCoe Idealize.ShloMosaic.ValueIdx Cert.DenseLib Cert.Sage
open Idealize.ShloMosaic.Pipeline (Dat)

theorem hz : (![0, 0] : Fin 2 → Nat) = fun _ => 0 := funext fun a => by fin_cases a <;> rfl

/-- The printed index maps, decided over the grid: a row-blocked window's block index is the point's number on the
    rows and zero on the columns; a whole-array window's is zero on both. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem lt_ten (t : Fin cfg1.N) : t.val < 10 := lt_of_lt_of_eq t.isLt N_1

/-- Where window 0's block at point `t` sits in its array: row `p` of the block is row `t · 5000 + p`. -/
theorem emb_0 (t : Fin cfg1.N) (p : Fin 5000) (k : Fin 128) :
    ((cfg1.win 0).blk t).view.emb (ix2 p k : S5000x128.Idx) = (ix2 (⟨t.val * 5000 + p.val, by have := lt_ten t; have := p.isLt; omega⟩ : Fin 50000) k : S50000x128.Idx) := by
  funext a; apply Fin.ext
  match a with
  | ⟨0, _⟩ => show win1_0.index t (0 : Fin 2) * 5000 + 1 * p.val = t.val * 5000 + p.val; rw [(idx_facts t).1]; omega
  | ⟨1, _⟩ => show win1_0.index t (1 : Fin 2) * 128 + 1 * k.val = k.val; rw [(idx_facts t).2.1]; omega

theorem blk_0 (V : (c : Dev nD) → (b : Ref sig .tc) → Buf (Elt Ideal) ((c : Thread nD τ).loc b)) (c : Dev nD) (t : Fin cfg1.N) (p : Fin 5000) (k : Fin 128) :
    iblk1 (F := Ideal) V c 0 t (ix2 p k : S5000x128.Idx) = V c main_v29 (ix2 (⟨t.val * 5000 + p.val, by have := lt_ten t; have := p.isLt; omega⟩ : Fin 50000) k : S50000x128.Idx) := by
  show V c main_v29 (((cfg1.win 0).blk t).view.emb (ix2 p k : S5000x128.Idx)) = _
  rw [emb_0]

/-- Window 1 stages its whole array at every point. -/
theorem blk_1 (V : (c : Dev nD) → (b : Ref sig .tc) → Buf (Elt Ideal) ((c : Thread nD τ).loc b)) (c : Dev nD) (t : Fin cfg1.N) :
    (iblk1 (F := Ideal) V c 1 t : S1x128.Idx → EReal) = V c main_v40 := by
  funext y
  show V c main_v40 (((cfg1.win 1).blk t).view.emb y) = V c main_v40 y
  refine congrArg (V c main_v40) ?_
  funext a; apply Fin.ext
  match a with
  | ⟨0, _⟩ => show win1_1.index t (0 : Fin 2) * 1 + 1 * (y 0).val = (y 0).val; rw [(idx_facts t).2.2.1]; omega
  | ⟨1, _⟩ => show win1_1.index t (1 : Fin 2) * 128 + 1 * (y 1).val = (y 1).val; rw [(idx_facts t).2.2.2.1]; omega

/-- Window 2 stages its whole array at every point. -/
theorem blk_2 (V : (c : Dev nD) → (b : Ref sig .tc) → Buf (Elt Ideal) ((c : Thread nD τ).loc b)) (c : Dev nD) (t : Fin cfg1.N) :
    (iblk1 (F := Ideal) V c 2 t : S1x128.Idx → EReal) = V c main_v41 := by
  funext y
  show V c main_v41 (((cfg1.win 2).blk t).view.emb y) = V c main_v41 y
  refine congrArg (V c main_v41) ?_
  funext a; apply Fin.ext
  match a with
  | ⟨0, _⟩ => show win1_2.index t (0 : Fin 2) * 1 + 1 * (y 0).val = (y 0).val; rw [(idx_facts t).2.2.2.2.1]; omega
  | ⟨1, _⟩ => show win1_2.index t (1 : Fin 2) * 128 + 1 * (y 1).val = (y 1).val; rw [(idx_facts t).2.2.2.2.2.1]; omega

/-- Window 3 stages its whole array at every point. -/
theorem blk_3 (V : (c : Dev nD) → (b : Ref sig .tc) → Buf (Elt Ideal) ((c : Thread nD τ).loc b)) (c : Dev nD) (t : Fin cfg1.N) :
    (iblk1 (F := Ideal) V c 3 t : S1x128.Idx → EReal) = V c main_v42 := by
  funext y
  show V c main_v42 (((cfg1.win 3).blk t).view.emb y) = V c main_v42 y
  refine congrArg (V c main_v42) ?_
  funext a; apply Fin.ext
  match a with
  | ⟨0, _⟩ => show win1_3.index t (0 : Fin 2) * 1 + 1 * (y 0).val = (y 0).val; rw [(idx_facts t).2.2.2.2.2.2.1]; omega
  | ⟨1, _⟩ => show win1_3.index t (1 : Fin 2) * 128 + 1 * (y 1).val = (y 1).val; rw [(idx_facts t).2.2.2.2.2.2.2.1]; omega

/-- Window 4 stages its whole array at every point. -/
theorem blk_4 (V : (c : Dev nD) → (b : Ref sig .tc) → Buf (Elt Ideal) ((c : Thread nD τ).loc b)) (c : Dev nD) (t : Fin cfg1.N) :
    (iblk1 (F := Ideal) V c 4 t : S1x128.Idx → EReal) = V c main_v43 := by
  funext y
  show V c main_v43 (((cfg1.win 4).blk t).view.emb y) = V c main_v43 y
  refine congrArg (V c main_v43) ?_
  funext a; apply Fin.ext
  match a with
  | ⟨0, _⟩ => show win1_4.index t (0 : Fin 2) * 1 + 1 * (y 0).val = (y 0).val; rw [(idx_facts t).2.2.2.2.2.2.2.2.1]; omega
  | ⟨1, _⟩ => show win1_4.index t (1 : Fin 2) * 128 + 1 * (y 1).val = (y 1).val; rw [(idx_facts t).2.2.2.2.2.2.2.2.2.1]; omega

/-- Window 5 stages its whole array at every point. -/
theorem blk_5 (V : (c : Dev nD) → (b : Ref sig .tc) → Buf (Elt Ideal) ((c : Thread nD τ).loc b)) (c : Dev nD) (t : Fin cfg1.N) :
    (iblk1 (F := Ideal) V c 5 t : S128x64.Idx → EReal) = V c main_arg7 := by
  funext y
  show V c main_arg7 (((cfg1.win 5).blk t).view.emb y) = V c main_arg7 y
  refine congrArg (V c main_arg7) ?_
  funext a; apply Fin.ext
  match a with
  | ⟨0, _⟩ => show win1_5.index t (0 : Fin 2) * 128 + 1 * (y 0).val = (y 0).val; rw [(idx_facts t).2.2.2.2.2.2.2.2.2.2.1]; omega
  | ⟨1, _⟩ => show win1_5.index t (1 : Fin 2) * 64 + 1 * (y 1).val = (y 1).val; rw [(idx_facts t).2.2.2.2.2.2.2.2.2.2.2.1]; omega

/-- Where window 6's block at point `t` sits in its array: row `p` of the block is row `t · 5000 + p`. -/
theorem emb_6 (t : Fin cfg1.N) (p : Fin 5000) (k : Fin 128) :
    ((cfg1.win 6).blk t).view.emb (ix2 p k : S5000x128.Idx) = (ix2 (⟨t.val * 5000 + p.val, by have := lt_ten t; have := p.isLt; omega⟩ : Fin 50000) k : S50000x128.Idx) := by
  funext a; apply Fin.ext
  match a with
  | ⟨0, _⟩ => show win1_6.index t (0 : Fin 2) * 5000 + 1 * p.val = t.val * 5000 + p.val; rw [(idx_facts t).2.2.2.2.2.2.2.2.2.2.2.2.1]; omega
  | ⟨1, _⟩ => show win1_6.index t (1 : Fin 2) * 128 + 1 * k.val = k.val; rw [(idx_facts t).2.2.2.2.2.2.2.2.2.2.2.2.2.1]; omega

/-- Where window 7's block at point `t` sits in its array: row `p` of the block is row `t · 5000 + p`. -/
theorem emb_7 (t : Fin cfg1.N) (p : Fin 5000) (k : Fin 64) :
    ((cfg1.win 7).blk t).view.emb (ix2 p k : S5000x64.Idx) = (ix2 (⟨t.val * 5000 + p.val, by have := lt_ten t; have := p.isLt; omega⟩ : Fin 50000) k : S50000x64.Idx) := by
  funext a; apply Fin.ext
  match a with
  | ⟨0, _⟩ => show win1_7.index t (0 : Fin 2) * 5000 + 1 * p.val = t.val * 5000 + p.val; rw [(idx_facts t).2.2.2.2.2.2.2.2.2.2.2.2.2.2.1]; omega
  | ⟨1, _⟩ => show win1_7.index t (1 : Fin 2) * 64 + 1 * k.val = k.val; rw [(idx_facts t).2.2.2.2.2.2.2.2.2.2.2.2.2.2.2]; omega

/-- An index of the output array is in point `t`'s block iff each coordinate is in the block's range. -/
theorem mem_blk_6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v44_0).slice (win1_6.rect t)).set ↔ _
  rw [View.set_slice_whole, Rect.mem_set_unit]
  exact Iff.rfl

/-- The ten row blocks tile the output array: row `r` is in the block of point `r / 5000`. -/
theorem cover_6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  let t : Fin cfg1.N := ⟨(i 0).val / 5000, lt_of_lt_of_eq (by omega : (i 0).val / 5000 < 10) N_1.symm⟩
  have htv : t.val = (i 0).val / 5000 := rfl
  refine ⟨t, flush1_6 t, ?_⟩
  rw [mem_blk_6]
  have e0 := (idx_facts t).2.2.2.2.2.2.2.2.2.2.2.2.1
  have e1 := (idx_facts t).2.2.2.2.2.2.2.2.2.2.2.2.2.1
  intro a
  match a with
  | ⟨0, _⟩ => show win1_6.index t (0 : Fin 2) * 5000 ≤ (i 0).val ∧ (i 0).val < win1_6.index t (0 : Fin 2) * 5000 + 5000; rw [e0, htv]; omega
  | ⟨1, _⟩ => show win1_6.index t (1 : Fin 2) * 128 ≤ (i 1).val ∧ (i 1).val < win1_6.index t (1 : Fin 2) * 128 + 128; rw [e1]; omega

/-- An index of the output array is in point `t`'s block iff each coordinate is in the block's range. -/
theorem mem_blk_7 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v44_1).slice (win1_7.rect t)).set ↔ _
  rw [View.set_slice_whole, Rect.mem_set_unit]
  exact Iff.rfl

/-- The ten row blocks tile the output array: row `r` is in the block of point `r / 5000`. -/
theorem cover_7 (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  let t : Fin cfg1.N := ⟨(i 0).val / 5000, lt_of_lt_of_eq (by omega : (i 0).val / 5000 < 10) N_1.symm⟩
  have htv : t.val = (i 0).val / 5000 := rfl
  refine ⟨t, flush1_7 t, ?_⟩
  rw [mem_blk_7]
  have e0 := (idx_facts t).2.2.2.2.2.2.2.2.2.2.2.2.2.2.1
  have e1 := (idx_facts t).2.2.2.2.2.2.2.2.2.2.2.2.2.2.2
  intro a
  match a with
  | ⟨0, _⟩ => show win1_7.index t (0 : Fin 2) * 5000 ≤ (i 0).val ∧ (i 0).val < win1_7.index t (0 : Fin 2) * 5000 + 5000; rw [e0, htv]; omega
  | ⟨1, _⟩ => show win1_7.index t (1 : Fin 2) * 64 ≤ (i 1).val ∧ (i 1).val < win1_7.index t (1 : Fin 2) * 64 + 64; rw [e1]; omega

/-- The normalisation at an entry uses the input at that entry only. -/
theorem bnRelu_entry {N N' C : ℕ} (eps : EReal) (X : Mat N C) (X' : Mat N' C) (mu var g b : Vc C) (p : Fin N) (n : Fin N') (q : Fin C)
    (h : X (ix2 p q) = X' (ix2 n q)) : bnRelu eps X mu var g b (ix2 p q) = bnRelu eps X' mu var g b (ix2 n q) := by
  show max (((X (ix2 p q) - mu (ix1 q)) * Ideal.rsqrt (var (ix1 q) + eps)) * g (ix1 q) + b (ix1 q)) 0
    = max (((X' (ix2 n q) - mu (ix1 q)) * Ideal.rsqrt (var (ix1 q) + eps)) * g (ix1 q) + b (ix1 q)) 0
  rw [h]

/-- One entry of the body's first result. -/
theorem point6 (H : Mat 50000 128) (MU VAR G B : Mat 1 128)
    (x0 : Vec Ideal S5000x128 .f32) (x1 x2 x3 x4 : Vec Ideal S1x128 .f32)
    (n : Fin 50000) (p : Fin 5000) (q : Fin 128)
    (h0 : x0 (ix2 p q) = H (ix2 n q)) (h1 : x1 = MU) (h2 : x2 = VAR) (h3 : x3 = G) (h4 : x4 = B) :
    k1_pay1 (F := Ideal) x0 x2 x1 x3 x4 (ix2 p q)
      = bnRelu (Ideal.ofBits .f32 0x3727C5AC#32) H (rowVec MU) (rowVec VAR) (rowVec G) (rowVec B) (ix2 n q) := by
  subst h1 h2 h3 h4
  rw [Pay.pay1]
  exact bnRelu_entry _ x0 H _ _ _ _ p n q h0

/-- One entry of the body's second result. -/
theorem point7 (H : Mat 50000 128) (MU VAR G B : Mat 1 128) (W : Mat 128 64)
    (x0 : Vec Ideal S5000x128 .f32) (x1 x2 x3 x4 : Vec Ideal S1x128 .f32) (x5 : Vec Ideal S128x64 .f32)
    (n : Fin 50000) (p : Fin 5000)
    (h0 : ∀ k : Fin 128, x0 (ix2 p k) = H (ix2 n k)) (h1 : x1 = MU) (h2 : x2 = VAR) (h3 : x3 = G) (h4 : x4 = B) (h5 : x5 = W)
    (q : Fin 64) :
    k1_pay2 (F := Ideal) x0 x2 x1 x3 x4 x5 (ix2 p q)
      = mm (bnRelu (Ideal.ofBits .f32 0x3727C5AC#32) H (rowVec MU) (rowVec VAR) (rowVec G) (rowVec B)) W (ix2 n q) := by
  subst h5
  rw [Pay.pay2]
  exact mm_row _ _ x5 p n (fun k => point6 H MU VAR G B x0 x1 x2 x3 x4 n p k (h0 k) h1 h2 h3 h4) q

/-- The hidden features of the whole arrays the region finds. -/
abbrev hid (V : (c : Dev nD) → (b : Ref sig .tc) → Buf (Elt Ideal) ((c : Thread nD τ).loc b)) (c : Dev nD) : Mat 50000 128 :=
  bnRelu (Ideal.ofBits .f32 0x3727C5AC#32) (V c main_v29) (rowVec (V c main_v40)) (rowVec (V c main_v41)) (rowVec (V c main_v42)) (rowVec (V c main_v43))

theorem flushed6 (V : (c : Dev nD) → (b : Ref sig .tc) → Buf (Elt Ideal) ((c : Thread nD τ).loc b)) (c : Dev nD) (t : Fin cfg1.N) :
    (dat1 (F := Ideal) V c).flushed 6 t = ((cfg1.win 6).blk t).view.read (Elt Ideal) (hid V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz]
  funext j
  obtain ⟨p, q, rfl⟩ : ∃ (p : Fin 5000) (q : Fin 128), (j : S5000x128.Idx) = ix2 p q := ⟨j 0, j 1, eq_ix2 j⟩
  refine (point6 (V c main_v29) (V c main_v40) (V c main_v41) (V c main_v42) (V c main_v43)
    (iblk1 V c 0 t) (iblk1 V c 1 t) (iblk1 V c 2 t) (iblk1 V c 3 t) (iblk1 V c 4 t) (⟨t.val * 5000 + p.val, by have := lt_ten t; have := p.isLt; omega⟩ : Fin 50000) p q
    (blk_0 V c t p q) (blk_1 V c t) (blk_2 V c t) (blk_3 V c t) (blk_4 V c t)).trans ?_
  show _ = hid V c (((cfg1.win 6).blk t).view.emb (ix2 p q : S5000x128.Idx))
  rw [emb_6]

theorem flushed7 (V : (c : Dev nD) → (b : Ref sig .tc) → Buf (Elt Ideal) ((c : Thread nD τ).loc b)) (c : Dev nD) (t : Fin cfg1.N) :
    (dat1 (F := Ideal) V c).flushed 7 t = ((cfg1.win 7).blk t).view.read (Elt Ideal) (mm (hid V c) (V c main_arg7)) := by
  show (cfg1.win 7).cut (grid1.coords t) ((dat1 V c).after 7 t) = _
  rw [after1_7]
  unfold out1_7
  rw [View.canon_unit_zero hz]
  simp only [View.ld_unit_zero (S := S5000x128) hz, View.ld_unit_zero (S := S1x128) hz, View.ld_unit_zero (S := S128x64) hz]
  funext j
  obtain ⟨p, q, rfl⟩ : ∃ (p : Fin 5000) (q : Fin 64), (j : S5000x64.Idx) = ix2 p q := ⟨j 0, j 1, eq_ix2 j⟩
  refine (point7 (V c main_v29) (V c main_v40) (V c main_v41) (V c main_v42) (V c main_v43) (V c main_arg7)
    (iblk1 V c 0 t) (iblk1 V c 1 t) (iblk1 V c 2 t) (iblk1 V c 3 t) (iblk1 V c 4 t) (iblk1 V c 5 t) (⟨t.val * 5000 + p.val, by have := lt_ten t; have := p.isLt; omega⟩ : Fin 50000) p
    (fun k => blk_0 V c t p k) (blk_1 V c t) (blk_2 V c t) (blk_3 V c t) (blk_4 V c t) (blk_5 V c t) q).trans ?_
  show _ = mm (hid V c) (V c main_arg7) (((cfg1.win 7).blk t).view.emb (ix2 p q : S5000x64.Idx))
  rw [emb_7]

/-- The two output arrays after the region. -/
theorem final6 (V : (c : Dev nD) → (b : Ref sig .tc) → Buf (Elt Ideal) ((c : Thread nD τ).loc b)) (c : Dev nD) : (dat1 (F := Ideal) V c).arrAt 6 cfg1.N = hid V c :=
  (dat1 (F := Ideal) V c).arrAt_eq_of_cover 6 _ (fun t _ => flushed6 V c t) cover_6

theorem final7 (V : (c : Dev nD) → (b : Ref sig .tc) → Buf (Elt Ideal) ((c : Thread nD τ).loc b)) (c : Dev nD) : (dat1 (F := Ideal) V c).arrAt 7 cfg1.N = mm (hid V c) (V c main_arg7) :=
  (dat1 (F := Ideal) V c).arrAt_eq_of_cover 7 _ (fun t _ => flushed7 V c t) cover_7

end Cert.KernelIdeal.Reg1

end
-- ==== Proof.Region2.lean ====
/-
  The third region's output array as one function of the arrays the region finds: block `t` is the aggregated block
  plus rows `t · 5000 …` of the hidden features through the weight, plus the bias row.
-/
import proofs.«103092_j3092376453137_2_alg».proof.Proof.Gen.KernelIdeal.Frame
import proofs.«103092_j3092376453137_2_alg».proof.Proof.KernelPay

set_option maxRecDepth 16384

noncomputable section

namespace Cert.KernelIdeal.Reg2

open Cert.KernelIdeal Cert.KernelIdeal.Gen
open Idealize.ShloMosaic Idealize.ShloMosaic.TcCoe Idealize.ShloMosaic.ValueIdx Cert.DenseLib Cert.Sage
open Idealize.ShloMosaic.Pipeline (Dat)

theorem hz : (![0, 0] : Fin 2 → Nat) = fun _ => 0 := funext fun a => by fin_cases a <;> rfl

/-- The printed index maps, decided over the grid: a row-blocked window's block index is the point's number on the
    rows and zero on the columns; a whole-array window's is zero on both. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt_ten (t : Fin cfg2.N) : t.val < 10 := lt_of_lt_of_eq t.isLt N_2

/-- Where window 0's block at point `t` sits in its array: row `p` of the block is row `t · 5000 + p`. -/
theorem emb_0 (t : Fin cfg2.N) (p : Fin 5000) (k : Fin 64) :
    ((cfg2.win 0).blk t).view.emb (ix2 p k : S5000x64.Idx) = (ix2 (⟨t.val * 5000 + p.val, by have := lt_ten t; have := p.isLt; omega⟩ : Fin 50000) k : S50000x64.Idx) := by
  funext a; apply Fin.ext
  match a with
  | ⟨0, _⟩ => show win2_0.index t (0 : Fin 2) * 5000 + 1 * p.val = t.val * 5000 + p.val; rw [(idx_facts t).1]; omega
  | ⟨1, _⟩ => show win2_0.index t (1 : Fin 2) * 64 + 1 * k.val = k.val; rw [(idx_facts t).2.1]; omega

theorem blk_0 (V : (c : Dev nD) → (b : Ref sig .tc) → Buf (Elt Ideal) ((c : Thread nD τ).loc b)) (c : Dev nD) (t : Fin cfg2.N) (p : Fin 5000) (k : Fin 64) :
    iblk2 (F := Ideal) V c 0 t (ix2 p k : S5000x64.Idx) = V c main_v57 (ix2 (⟨t.val * 5000 + p.val, by have := lt_ten t; have := p.isLt; omega⟩ : Fin 50000) k : S50000x64.Idx) := by
  show V c main_v57 (((cfg2.win 0).blk t).view.emb (ix2 p k : S5000x64.Idx)) = _
  rw [emb_0]

/-- Where window 1's block at point `t` sits in its array: row `p` of the block is row `t · 5000 + p`. -/
theorem emb_1 (t : Fin cfg2.N) (p : Fin 5000) (k : Fin 128) :
    ((cfg2.win 1).blk t).view.emb (ix2 p k : S5000x128.Idx) = (ix2 (⟨t.val * 5000 + p.val, by have := lt_ten t; have := p.isLt; omega⟩ : Fin 50000) k : S50000x128.Idx) := by
  funext a; apply Fin.ext
  match a with
  | ⟨0, _⟩ => show win2_1.index t (0 : Fin 2) * 5000 + 1 * p.val = t.val * 5000 + p.val; rw [(idx_facts t).2.2.1]; omega
  | ⟨1, _⟩ => show win2_1.index t (1 : Fin 2) * 128 + 1 * k.val = k.val; rw [(idx_facts t).2.2.2.1]; omega

theorem blk_1 (V : (c : Dev nD) → (b : Ref sig .tc) → Buf (Elt Ideal) ((c : Thread nD τ).loc b)) (c : Dev nD) (t : Fin cfg2.N) (p : Fin 5000) (k : Fin 128) :
    iblk2 (F := Ideal) V c 1 t (ix2 p k : S5000x128.Idx) = V c main_v44_0 (ix2 (⟨t.val * 5000 + p.val, by have := lt_ten t; have := p.isLt; omega⟩ : Fin 50000) k : S50000x128.Idx) := by
  show V c main_v44_0 (((cfg2.win 1).blk t).view.emb (ix2 p k : S5000x128.Idx)) = _
  rw [emb_1]

/-- Window 2 stages its whole array at every point. -/
theorem blk_2 (V : (c : Dev nD) → (b : Ref sig .tc) → Buf (Elt Ideal) ((c : Thread nD τ).loc b)) (c : Dev nD) (t : Fin cfg2.N) :
    (iblk2 (F := Ideal) V c 2 t : S128x64.Idx → EReal) = V c main_arg9 := by
  funext y
  show V c main_arg9 (((cfg2.win 2).blk t).view.emb y) = V c main_arg9 y
  refine congrArg (V c main_arg9) ?_
  funext a; apply Fin.ext
  match a with
  | ⟨0, _⟩ => show win2_2.index t (0 : Fin 2) * 128 + 1 * (y 0).val = (y 0).val; rw [(idx_facts t).2.2.2.2.1]; omega
  | ⟨1, _⟩ => show win2_2.index t (1 : Fin 2) * 64 + 1 * (y 1).val = (y 1).val; rw [(idx_facts t).2.2.2.2.2.1]; omega

/-- Window 3 stages its whole array at every point. -/
theorem blk_3 (V : (c : Dev nD) → (b : Ref sig .tc) → Buf (Elt Ideal) ((c : Thread nD τ).loc b)) (c : Dev nD) (t : Fin cfg2.N) :
    (iblk2 (F := Ideal) V c 3 t : S1x64.Idx → EReal) = V c main_v58 := by
  funext y
  show V c main_v58 (((cfg2.win 3).blk t).view.emb y) = V c main_v58 y
  refine congrArg (V c main_v58) ?_
  funext a; apply Fin.ext
  match a with
  | ⟨0, _⟩ => show win2_3.index t (0 : Fin 2) * 1 + 1 * (y 0).val = (y 0).val; rw [(idx_facts t).2.2.2.2.2.2.1]; omega
  | ⟨1, _⟩ => show win2_3.index t (1 : Fin 2) * 64 + 1 * (y 1).val = (y 1).val; rw [(idx_facts t).2.2.2.2.2.2.2.1]; omega

/-- Where window 4's block at point `t` sits in its array: row `p` of the block is row `t · 5000 + p`. -/
theorem emb_4 (t : Fin cfg2.N) (p : Fin 5000) (k : Fin 64) :
    ((cfg2.win 4).blk t).view.emb (ix2 p k : S5000x64.Idx) = (ix2 (⟨t.val * 5000 + p.val, by have := lt_ten t; have := p.isLt; omega⟩ : Fin 50000) k : S50000x64.Idx) := by
  funext a; apply Fin.ext
  match a with
  | ⟨0, _⟩ => show win2_4.index t (0 : Fin 2) * 5000 + 1 * p.val = t.val * 5000 + p.val; rw [(idx_facts t).2.2.2.2.2.2.2.2.1]; omega
  | ⟨1, _⟩ => show win2_4.index t (1 : Fin 2) * 64 + 1 * k.val = k.val; rw [(idx_facts t).2.2.2.2.2.2.2.2.2]; omega

/-- An index of the output array is in point `t`'s block iff each coordinate is in the block's range. -/
theorem mem_blk_4 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v59).slice (win2_4.rect t)).set ↔ _
  rw [View.set_slice_whole, Rect.mem_set_unit]
  exact Iff.rfl

/-- The ten row blocks tile the output array: row `r` is in the block of point `r / 5000`. -/
theorem cover_4 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  let t : Fin cfg2.N := ⟨(i 0).val / 5000, lt_of_lt_of_eq (by omega : (i 0).val / 5000 < 10) N_2.symm⟩
  have htv : t.val = (i 0).val / 5000 := rfl
  refine ⟨t, flush2_4 t, ?_⟩
  rw [mem_blk_4]
  have e0 := (idx_facts t).2.2.2.2.2.2.2.2.1
  have e1 := (idx_facts t).2.2.2.2.2.2.2.2.2
  intro a
  match a with
  | ⟨0, _⟩ => show win2_4.index t (0 : Fin 2) * 5000 ≤ (i 0).val ∧ (i 0).val < win2_4.index t (0 : Fin 2) * 5000 + 5000; rw [e0, htv]; omega
  | ⟨1, _⟩ => show win2_4.index t (1 : Fin 2) * 64 ≤ (i 1).val ∧ (i 1).val < win2_4.index t (1 : Fin 2) * 64 + 64; rw [e1]; omega

/-- One entry of the body's result. -/
theorem point (A2 : Mat 50000 64) (H : Mat 50000 128) (Wr : Mat 128 64) (B : Mat 1 64)
    (x0 : Vec Ideal S5000x64 .f32) (x1 : Vec Ideal S5000x128 .f32) (x2 : Vec Ideal S128x64 .f32) (x3 : Vec Ideal S1x64 .f32)
    (n : Fin 50000) (p : Fin 5000) (q : Fin 64)
    (h0 : x0 (ix2 p q) = A2 (ix2 n q)) (h1 : ∀ k : Fin 128, x1 (ix2 p k) = H (ix2 n k)) (h2 : x2 = Wr) (h3 : x3 = B) :
    k2_pay1 (F := Ideal) x0 x1 x2 x3 (ix2 p q) = plus (plus A2 (mm H Wr)) (vrows (rowVec B)) (ix2 n q) := by
  subst h2 h3
  rw [Pay.pay3]
  show (x0 (ix2 p q) + mm x1 x2 (ix2 p q)) + x3 (ix2 (0 : Fin 1) q) = (A2 (ix2 n q) + mm H x2 (ix2 n q)) + x3 (ix2 (0 : Fin 1) q)
  rw [h0, mm_row x1 H x2 p n h1 q]

theorem flushed (V : (c : Dev nD) → (b : Ref sig .tc) → Buf (Elt Ideal) ((c : Thread nD τ).loc b)) (c : Dev nD) (t : Fin cfg2.N) :
    (dat2 (F := Ideal) V c).flushed 4 t = ((cfg2.win 4).blk t).view.read (Elt Ideal)
      (plus (plus (V c main_v57) (mm (V c main_v44_0) (V c main_arg9))) (vrows (rowVec (V c main_v58)))) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x128) hz, View.ld_unit_zero (S := S128x64) hz, View.ld_unit_zero (S := S1x64) hz]
  funext j
  obtain ⟨p, q, rfl⟩ : ∃ (p : Fin 5000) (q : Fin 64), (j : S5000x64.Idx) = ix2 p q := ⟨j 0, j 1, eq_ix2 j⟩
  refine (point (V c main_v57) (V c main_v44_0) (V c main_arg9) (V c main_v58)
    (iblk2 V c 0 t) (iblk2 V c 1 t) (iblk2 V c 2 t) (iblk2 V c 3 t) (⟨t.val * 5000 + p.val, by have := lt_ten t; have := p.isLt; omega⟩ : Fin 50000) p q
    (blk_0 V c t p q) (fun k => blk_1 V c t p k) (blk_2 V c t) (blk_3 V c t)).trans ?_
  show _ = plus (plus (V c main_v57) (mm (V c main_v44_0) (V c main_arg9))) (vrows (rowVec (V c main_v58)))
    (((cfg2.win 4).blk t).view.emb (ix2 p q : S5000x64.Idx))
  rw [emb_4]

/-- The output array after the region. -/
theorem final (V : (c : Dev nD) → (b : Ref sig .tc) → Buf (Elt Ideal) ((c : Thread nD τ).loc b)) (c : Dev nD) :
    (dat2 (F := Ideal) V c).arrAt 4 cfg2.N
      = plus (plus (V c main_v57) (mm (V c main_v44_0) (V c main_arg9))) (vrows (rowVec (V c main_v58))) :=
  (dat2 (F := Ideal) V c).arrAt_eq_of_cover 4 _ (fun t _ => flushed V c t) cover_4

end Cert.KernelIdeal.Reg2

end
-- ==== Proof.KernelValue.lean ====
/-
  The idealized kernel's result as one explicit function of the launch arrays: the fold through the host stretches
  and the three regions, read boundary by boundary. Each region's output array is the region's function of the arrays
  it finds (the region modules); each array a region finds is the preceding stretch's term of the previous boundary
  (the fold module); a buffer no later operation writes keeps its contents. The names `H1`, `Hk`, `Out` are the first
  layer, the hidden features and the result in the host's own spelling of the aggregation and of the column statistics.
-/
import proofs.«103092_j3092376453137_2_alg».proof.Proof.KernelFold
import proofs.«103092_j3092376453137_2_alg».proof.Proof.Region0
import proofs.«103092_j3092376453137_2_alg».proof.Proof.Region1
import proofs.«103092_j3092376453137_2_alg».proof.Proof.Region2

set_option maxRecDepth 16384
set_option maxHeartbeats 4000000

noncomputable section

namespace Cert.KernelIdeal.KVal

open Cert.KernelIdeal Cert.KernelIdeal.Gen Cert.KernelIdeal.Fold
open Idealize.ShloMosaic Idealize.ShloMosaic.TcCoe Idealize.ShloMosaic.StableHlo Idealize.ShloMosaic.ValueIdx
open Cert.DenseLib Cert.Sage

/-- The small constant under the root. -/
abbrev eps : EReal := Ideal.ofBits .f32 0x3727C5AC#32

/-- The first layer, in the host's spelling of the aggregation. -/
def H1 (x : FVec Ideal S50000x64 .f32) (ei : IVec S2x800000 32) (W1l : FVec Ideal S64x128 .f32) (b1 : FVec Ideal S128 .f32)
    (W1r : FVec Ideal S64x128 .f32) : Mat 50000 128 :=
  layer1 (aggHost x (srcVec ei) (dstVec ei) (degInv (dstVec ei))) x W1l W1r (rowVec (shapeCast S1x128 b1 shapeCasts_S128_S1x128))

/-- The hidden features, with the column statistics in the host's spelling and every vector passed as a one-row array. -/
def Hk (x : FVec Ideal S50000x64 .f32) (ei : IVec S2x800000 32) (W1l : FVec Ideal S64x128 .f32) (b1 : FVec Ideal S128 .f32)
    (W1r : FVec Ideal S64x128 .f32) (gamma beta : FVec Ideal S128 .f32) : Mat 50000 128 :=
  bnRelu eps (H1 x ei W1l b1 W1r)
    (rowVec (shapeCast S1x128 (meanHost (H1 x ei W1l b1 W1r)) shapeCasts_S128_S1x128))
    (rowVec (shapeCast S1x128 (meanHost (sqDevHost (H1 x ei W1l b1 W1r) (meanHost (H1 x ei W1l b1 W1r)))) shapeCasts_S128_S1x128))
    (rowVec (shapeCast S1x128 gamma shapeCasts_S128_S1x128)) (rowVec (shapeCast S1x128 beta shapeCasts_S128_S1x128))

/-- The result: the aggregated pre-transformed features, the own features through the weight, the bias row. -/
def Out (x : FVec Ideal S50000x64 .f32) (ei : IVec S2x800000 32) (W1l : FVec Ideal S64x128 .f32) (b1 : FVec Ideal S128 .f32)
    (W1r : FVec Ideal S64x128 .f32) (gamma beta : FVec Ideal S128 .f32) (W2l : FVec Ideal S128x64 .f32) (b2 : FVec Ideal S64 .f32)
    (W2r : FVec Ideal S128x64 .f32) : Mat 50000 64 :=
  plus (plus (aggHost (mm (Hk x ei W1l b1 W1r gamma beta) W2l) (srcVec ei) (dstVec ei) (degInv (dstVec ei)))
      (mm (Hk x ei W1l b1 W1r gamma beta) W2r)) (vrows (rowVec (shapeCast S1x64 b2 shapeCasts_S64_S1x64)))

variable (m : (ℓ : Loc nD τ sig) → Buf (Elt Ideal) ℓ) (ρ : Dev nD → PrngReg) (c : Dev nD)

/-! ## After the first two stretches -/
theorem w2_arg0 : W2 m ρ c (Proc.devRef .tc main_arg0) = m ((c : Thread nD τ).loc main_arg0) :=
  (s1_arg0 (W1 m ρ c)).trans (s0_arg0 (W0 m ρ c))
theorem w2_arg1 : W2 m ρ c (Proc.devRef .tc main_arg1) = m ((c : Thread nD τ).loc main_arg1) :=
  (s1_arg1 (W1 m ρ c)).trans (s0_arg1 (W0 m ρ c))
theorem w2_arg2 : W2 m ρ c (Proc.devRef .tc main_arg2) = m ((c : Thread nD τ).loc main_arg2) :=
  (s1_arg2 (W1 m ρ c)).trans (s0_arg2 (W0 m ρ c))
theorem w2_arg3 : W2 m ρ c (Proc.devRef .tc main_arg3) = m ((c : Thread nD τ).loc main_arg3) :=
  (s1_arg3 (W1 m ρ c)).trans (s0_arg3 (W0 m ρ c))
theorem w2_arg4 : W2 m ρ c (Proc.devRef .tc main_arg4) = m ((c : Thread nD τ).loc main_arg4) :=
  (s1_arg4 (W1 m ρ c)).trans (s0_arg4 (W0 m ρ c))
theorem w2_arg5 : W2 m ρ c (Proc.devRef .tc main_arg5) = m ((c : Thread nD τ).loc main_arg5) :=
  (s1_arg5 (W1 m ρ c)).trans (s0_arg5 (W0 m ρ c))
theorem w2_arg6 : W2 m ρ c (Proc.devRef .tc main_arg6) = m ((c : Thread nD τ).loc main_arg6) :=
  (s1_arg6 (W1 m ρ c)).trans (s0_arg6 (W0 m ρ c))
theorem w2_arg7 : W2 m ρ c (Proc.devRef .tc main_arg7) = m ((c : Thread nD τ).loc main_arg7) :=
  (s1_arg7 (W1 m ρ c)).trans (s0_arg7 (W0 m ρ c))
theorem w2_arg8 : W2 m ρ c (Proc.devRef .tc main_arg8) = m ((c : Thread nD τ).loc main_arg8) :=
  (s1_arg8 (W1 m ρ c)).trans (s0_arg8 (W0 m ρ c))
theorem w2_arg9 : W2 m ρ c (Proc.devRef .tc main_arg9) = m ((c : Thread nD τ).loc main_arg9) :=
  (s1_arg9 (W1 m ρ c)).trans (s0_arg9 (W0 m ρ c))
theorem w2_v1 : W2 m ρ c (Proc.devRef .tc main_v1) = srcVec (m ((c : Thread nD τ).loc main_arg1)) := (s1_v1 (W1 m ρ c)).trans (s0_v1 (W0 m ρ c))
theorem w2_v3 : W2 m ρ c (Proc.devRef .tc main_v3) = dstVec (m ((c : Thread nD τ).loc main_arg1)) := (s1_v3 (W1 m ρ c)).trans (s0_v3 (W0 m ρ c))
theorem w2_v14 : W2 m ρ c (Proc.devRef .tc main_v14) = degInv (dstVec (m ((c : Thread nD τ).loc main_arg1))) := by
  refine (s1_v14 (W1 m ρ c)).trans ?_
  have e9 := s0_v9 (W0 m ρ c)
  have e13 := s0_v13 (W0 m ρ c)
  have e4 := s0_cst4 (W0 m ρ c)
  dsimp only
  rw [show W1 m ρ c (Proc.devRef .tc main_v9) = _ from e9, show W1 m ρ c (Proc.devRef .tc main_v13) = _ from e13, show W1 m ρ c (Proc.devRef .tc main_cst_4) = _ from e4]
  rfl

/-! ## Region 0's entry -/
theorem w3_arg0 : W3 m ρ c (Proc.devRef .tc main_arg0) = m ((c : Thread nD τ).loc main_arg0) :=
  (s2_arg0 (W2 m ρ c)).trans (w2_arg0 m ρ c)
theorem w3_arg2 : W3 m ρ c (Proc.devRef .tc main_arg2) = m ((c : Thread nD τ).loc main_arg2) :=
  (s2_arg2 (W2 m ρ c)).trans (w2_arg2 m ρ c)
theorem w3_arg4 : W3 m ρ c (Proc.devRef .tc main_arg4) = m ((c : Thread nD τ).loc main_arg4) :=
  (s2_arg4 (W2 m ρ c)).trans (w2_arg4 m ρ c)
theorem w3_arg5 : W3 m ρ c (Proc.devRef .tc main_arg5) = m ((c : Thread nD τ).loc main_arg5) :=
  (s2_arg5 (W2 m ρ c)).trans (w2_arg5 m ρ c)
theorem w3_arg6 : W3 m ρ c (Proc.devRef .tc main_arg6) = m ((c : Thread nD τ).loc main_arg6) :=
  (s2_arg6 (W2 m ρ c)).trans (w2_arg6 m ρ c)
theorem w3_arg7 : W3 m ρ c (Proc.devRef .tc main_arg7) = m ((c : Thread nD τ).loc main_arg7) :=
  (s2_arg7 (W2 m ρ c)).trans (w2_arg7 m ρ c)
theorem w3_arg8 : W3 m ρ c (Proc.devRef .tc main_arg8) = m ((c : Thread nD τ).loc main_arg8) :=
  (s2_arg8 (W2 m ρ c)).trans (w2_arg8 m ρ c)
theorem w3_arg9 : W3 m ρ c (Proc.devRef .tc main_arg9) = m ((c : Thread nD τ).loc main_arg9) :=
  (s2_arg9 (W2 m ρ c)).trans (w2_arg9 m ρ c)
theorem w3_v1 : W3 m ρ c (Proc.devRef .tc main_v1) = srcVec (m ((c : Thread nD τ).loc main_arg1)) := (s2_v1 (W2 m ρ c)).trans (w2_v1 m ρ c)
theorem w3_v3 : W3 m ρ c (Proc.devRef .tc main_v3) = dstVec (m ((c : Thread nD τ).loc main_arg1)) := (s2_v3 (W2 m ρ c)).trans (w2_v3 m ρ c)
theorem w3_v14 : W3 m ρ c (Proc.devRef .tc main_v14) = degInv (dstVec (m ((c : Thread nD τ).loc main_arg1))) := (s2_v14 (W2 m ρ c)).trans (w2_v14 m ρ c)
theorem w3_v27 : W3 m ρ c (Proc.devRef .tc main_v27) = aggHost (m ((c : Thread nD τ).loc main_arg0)) (srcVec (m ((c : Thread nD τ).loc main_arg1))) (dstVec (m ((c : Thread nD τ).loc main_arg1))) (degInv (dstVec (m ((c : Thread nD τ).loc main_arg1)))) := by
  refine (s2_v27 (W2 m ρ c)).trans ?_
  rw [w2_arg0 m ρ c, w2_v1 m ρ c, w2_v3 m ρ c, w2_v14 m ρ c]
theorem w3_v28 : W3 m ρ c (Proc.devRef .tc main_v28) = shapeCast S1x128 (m ((c : Thread nD τ).loc main_arg3)) shapeCasts_S128_S1x128 := by
  refine (s2_v28 (W2 m ρ c)).trans ?_
  dsimp only
  rw [w2_arg3 m ρ c]

/-! ## Region 0's exit -/
theorem w4_v29 : W4 m ρ c (Proc.devRef .tc main_v29) = H1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ?_
  refine (Reg0.final (V3 m ρ) c).trans ?_
  show layer1 (W3 m ρ c (Proc.devRef .tc main_v27)) (W3 m ρ c (Proc.devRef .tc main_arg0)) (W3 m ρ c (Proc.devRef .tc main_arg2)) (W3 m ρ c (Proc.devRef .tc main_arg4))
    (rowVec (W3 m ρ c (Proc.devRef .tc main_v28))) = _
  rw [w3_v27 m ρ c, w3_arg0 m ρ c, w3_arg2 m ρ c, w3_arg4 m ρ c, w3_v28 m ρ c]
  rfl
theorem w4_arg5 : W4 m ρ c (Proc.devRef .tc main_arg5) = m ((c : Thread nD τ).loc main_arg5) := (W4_of_ne m ρ c main_arg5 (by decide)).trans (w3_arg5 m ρ c)
theorem w4_arg6 : W4 m ρ c (Proc.devRef .tc main_arg6) = m ((c : Thread nD τ).loc main_arg6) := (W4_of_ne m ρ c main_arg6 (by decide)).trans (w3_arg6 m ρ c)
theorem w4_arg7 : W4 m ρ c (Proc.devRef .tc main_arg7) = m ((c : Thread nD τ).loc main_arg7) := (W4_of_ne m ρ c main_arg7 (by decide)).trans (w3_arg7 m ρ c)
theorem w4_arg8 : W4 m ρ c (Proc.devRef .tc main_arg8) = m ((c : Thread nD τ).loc main_arg8) := (W4_of_ne m ρ c main_arg8 (by decide)).trans (w3_arg8 m ρ c)
theorem w4_arg9 : W4 m ρ c (Proc.devRef .tc main_arg9) = m ((c : Thread nD τ).loc main_arg9) := (W4_of_ne m ρ c main_arg9 (by decide)).trans (w3_arg9 m ρ c)
theorem w4_v1 : W4 m ρ c (Proc.devRef .tc main_v1) = srcVec (m ((c : Thread nD τ).loc main_arg1)) := (W4_of_ne m ρ c main_v1 (by decide)).trans (w3_v1 m ρ c)
theorem w4_v3 : W4 m ρ c (Proc.devRef .tc main_v3) = dstVec (m ((c : Thread nD τ).loc main_arg1)) := (W4_of_ne m ρ c main_v3 (by decide)).trans (w3_v3 m ρ c)
theorem w4_v14 : W4 m ρ c (Proc.devRef .tc main_v14) = degInv (dstVec (m ((c : Thread nD τ).loc main_arg1))) := (W4_of_ne m ρ c main_v14 (by decide)).trans (w3_v14 m ρ c)

/-! ## Region 1's entry -/
theorem w5_v29 : W5 m ρ c (Proc.devRef .tc main_v29) = H1 (m ((c : Thread nD τ).loc main_arg0)) (m ((c : Thread nD τ).loc main_arg1)) (m ((c : Thread nD τ).loc main_arg2)) (m ((c : Thread nD τ).loc main_arg3)) (m ((c : Thread nD τ).loc main_arg4)) := (s3_v29 (W4 m ρ c)).trans (w4_v29 m ρ c)
theorem w5_v40 : W5 m ρ c (Proc.devRef .tc main_v40) = shapeCast S1x128 (meanHost (H1 (m ((c : Thread nD τ).loc main_arg0)) (m ((c : Thread nD τ).loc main_arg1)) (m ((c : Thread nD τ).loc main_arg2)) (m ((c : Thread nD τ).loc main_arg3)) (m ((c : Thread nD τ).loc main_arg4)))) shapeCasts_S128_S1x128 := by
  refine (s3_v40 (W4 m ρ c)).trans ?_
  rw [w4_v29 m ρ c]
theorem w5_v41 : W5 m ρ c (Proc.devRef .tc main_v41) = shapeCast S1x128 (meanHost (sqDevHost (H1 (m ((c : Thread nD τ).loc main_arg0)) (m ((c : Thread nD τ).loc main_arg1)) (m ((c : Thread nD τ).loc main_arg2)) (m ((c : Thread nD τ).loc main_arg3)) (m ((c : Thread nD τ).loc main_arg4))) (meanHost (H1 (m ((c : Thread nD τ).loc main_arg0)) (m ((c : Thread nD τ).loc main_arg1)) (m ((c : Thread nD τ).loc main_arg2)) (m ((c : Thread nD τ).loc main_arg3)) (m ((c : Thread nD τ).loc main_arg4)))))) shapeCasts_S128_S1x128 := by
  refine (s3_v41 (W4 m ρ c)).trans ?_
  rw [w4_v29 m ρ c]
theorem w5_v42 : W5 m ρ c (Proc.devRef .tc main_v42) = shapeCast S1x128 (m ((c : Thread nD τ).loc main_arg5)) shapeCasts_S128_S1x128 := by
  refine (s3_v42 (W4 m ρ c)).trans ?_
  dsimp only
  rw [w4_arg5 m ρ c]
theorem w5_v43 : W5 m ρ c (Proc.devRef .tc main_v43) = shapeCast S1x128 (m ((c : Thread nD τ).loc main_arg6)) shapeCasts_S128_S1x128 := by
  refine (s3_v43 (W4 m ρ c)).trans ?_
  dsimp only
  rw [w4_arg6 m ρ c]
theorem w5_arg7 : W5 m ρ c (Proc.devRef .tc main_arg7) = m ((c : Thread nD τ).loc main_arg7) := (s3_arg7 (W4 m ρ c)).trans (w4_arg7 m ρ c)
theorem w5_arg8 : W5 m ρ c (Proc.devRef .tc main_arg8) = m ((c : Thread nD τ).loc main_arg8) := (s3_arg8 (W4 m ρ c)).trans (w4_arg8 m ρ c)
theorem w5_arg9 : W5 m ρ c (Proc.devRef .tc main_arg9) = m ((c : Thread nD τ).loc main_arg9) := (s3_arg9 (W4 m ρ c)).trans (w4_arg9 m ρ c)
theorem w5_v1 : W5 m ρ c (Proc.devRef .tc main_v1) = srcVec (m ((c : Thread nD τ).loc main_arg1)) := (s3_v1 (W4 m ρ c)).trans (w4_v1 m ρ c)
theorem w5_v3 : W5 m ρ c (Proc.devRef .tc main_v3) = dstVec (m ((c : Thread nD τ).loc main_arg1)) := (s3_v3 (W4 m ρ c)).trans (w4_v3 m ρ c)
theorem w5_v14 : W5 m ρ c (Proc.devRef .tc main_v14) = degInv (dstVec (m ((c : Thread nD τ).loc main_arg1))) := (s3_v14 (W4 m ρ c)).trans (w4_v14 m ρ c)

/-! ## Region 1's exit -/
theorem hid5 : Reg1.hid (V5 m ρ) c = Hk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show bnRelu eps (W5 m ρ c (Proc.devRef .tc main_v29)) (rowVec (W5 m ρ c (Proc.devRef .tc main_v40))) (rowVec (W5 m ρ c (Proc.devRef .tc main_v41)))
    (rowVec (W5 m ρ c (Proc.devRef .tc main_v42))) (rowVec (W5 m ρ c (Proc.devRef .tc main_v43))) = _
  rw [w5_v29 m ρ c, w5_v40 m ρ c, w5_v41 m ρ c, w5_v42 m ρ c, w5_v43 m ρ c]
  rfl
theorem w6_v44_0 : W6 m ρ c (Proc.devRef .tc main_v44_0) = Hk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W6_arr m ρ c 6).trans ((Reg1.final6 (V5 m ρ) c).trans (hid5 m ρ c))
theorem w6_v44_1 : W6 m ρ c (Proc.devRef .tc main_v44_1) = mm (Hk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) := by
  refine (W6_arr m ρ c 7).trans ?_
  refine (Reg1.final7 (V5 m ρ) c).trans ?_
  rw [hid5 m ρ c]
  show mm _ (W5 m ρ c (Proc.devRef .tc main_arg7)) = _
  rw [w5_arg7 m ρ c]
theorem w6_arg8 : W6 m ρ c (Proc.devRef .tc main_arg8) = m ((c : Thread nD τ).loc main_arg8) := (W6_of_ne m ρ c main_arg8 (by decide)).trans (w5_arg8 m ρ c)
theorem w6_arg9 : W6 m ρ c (Proc.devRef .tc main_arg9) = m ((c : Thread nD τ).loc main_arg9) := (W6_of_ne m ρ c main_arg9 (by decide)).trans (w5_arg9 m ρ c)
theorem w6_v1 : W6 m ρ c (Proc.devRef .tc main_v1) = srcVec (m ((c : Thread nD τ).loc main_arg1)) := (W6_of_ne m ρ c main_v1 (by decide)).trans (w5_v1 m ρ c)
theorem w6_v3 : W6 m ρ c (Proc.devRef .tc main_v3) = dstVec (m ((c : Thread nD τ).loc main_arg1)) := (W6_of_ne m ρ c main_v3 (by decide)).trans (w5_v3 m ρ c)
theorem w6_v14 : W6 m ρ c (Proc.devRef .tc main_v14) = degInv (dstVec (m ((c : Thread nD τ).loc main_arg1))) := (W6_of_ne m ρ c main_v14 (by decide)).trans (w5_v14 m ρ c)

/-! ## Region 2's entry and exit -/
theorem w7_v57 : W7 m ρ c (Proc.devRef .tc main_v57) = aggHost (mm (Hk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7))) (srcVec (m ((c : Thread nD τ).loc main_arg1))) (dstVec (m ((c : Thread nD τ).loc main_arg1))) (degInv (dstVec (m ((c : Thread nD τ).loc main_arg1)))) := by
  refine (s4_v57 (W6 m ρ c)).trans ?_
  rw [w6_v44_1 m ρ c, w6_v1 m ρ c, w6_v3 m ρ c, w6_v14 m ρ c]
theorem w7_v58 : W7 m ρ c (Proc.devRef .tc main_v58) = shapeCast S1x64 (m ((c : Thread nD τ).loc main_arg8)) shapeCasts_S64_S1x64 := by
  refine (s4_v58 (W6 m ρ c)).trans ?_
  dsimp only
  rw [w6_arg8 m ρ c]
theorem w7_v44_0 : W7 m ρ c (Proc.devRef .tc main_v44_0) = Hk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (s4_v44_0 (W6 m ρ c)).trans (w6_v44_0 m ρ c)
theorem w7_arg9 : W7 m ρ c (Proc.devRef .tc main_arg9) = m ((c : Thread nD τ).loc main_arg9) := (s4_arg9 (W6 m ρ c)).trans (w6_arg9 m ρ c)

/-- THE RESULT BUFFER after the run, as the explicit function of the launch arrays. -/
theorem w8_v59 : W8 m ρ c (Proc.devRef .tc main_v59) = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 4).trans ?_
  refine (Reg2.final (V7 m ρ) c).trans ?_
  show plus (plus (W7 m ρ c (Proc.devRef .tc main_v57)) (mm (W7 m ρ c (Proc.devRef .tc main_v44_0)) (W7 m ρ c (Proc.devRef .tc main_arg9))))
    (vrows (rowVec (W7 m ρ c (Proc.devRef .tc main_v58)))) = _
  rw [w7_v57 m ρ c, w7_v44_0 m ρ c, w7_arg9 m ρ c, w7_v58 m ρ c]
  rfl

end Cert.KernelIdeal.KVal

end
-- ==== Proof.LibSageHost.lean ====
/-
  The host's spellings of the graph network's stages, each as ONE function of its operands over the extended reals:
  a gather of whole rows is the rows taken at the start indices; update rows added into a broadcast-zero table are
  the update rows summed per destination row; the product with a vector broadcast to a column and along the rows
  scales every row; a sum down the columns from a zero initial value divided by a broadcast constant is the column
  mean; the centred, scaled, shifted array cut at zero is the normalisation; two general dots and a bias row are the
  layers' arrangements. Every dimension record and every shape side condition is an argument, so that any program's
  own records can be plugged in. No program is mentioned.
-/
import proofs.«103092_j3092376453137_2_alg».proof.Proof.LibSageSpec
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx Cert.DenseLib Cert.RowsLib Cert.ScatterLib Cert.LayoutLib

section Host

variable {N C R K : ℕ}

/-- A gather of whole rows is the rows of the table taken at the start indices. -/
theorem gather_eq_takeRows (hN : 0 < N)
    (wf : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wf)
    (X : FVec Ideal ⟨2, ![N, C]⟩ .f32) (s : ICol R) :
    Host.gather g X s = takeRows hN s X := by
  subst hg
  funext i
  obtain ⟨r, c, rfl⟩ : ∃ (r : Fin R) (c : Fin C), i = ix2 r c := ⟨i 0, i 1, eq_ix2 i⟩
  exact gather_rows_apply hN wf X s r c

/-- Update rows added into a zero table are the update rows summed per destination row. -/
theorem scatter_eq_segSum
    (wf : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wf)
    (hb : (⟨0, ![]⟩ : Shape).BroadcastsInDim ⟨2, ![N, C]⟩ (![] : Fin 0 → Fin 2))
    (idx : ICol R) (U : FVec Ideal ⟨2, ![R, C]⟩ .f32) :
    Host.scatterAdd (F := Ideal) sc
        (broadcastInDim ⟨2, ![N, C]⟩ ![] hb (constant (F := Ideal) ⟨0, ![]⟩ .f32 0x00000000#32)) idx U
      = segSum idx U := by
  subst hsc
  funext i
  obtain ⟨b, k, rfl⟩ : ∃ (b : Fin N) (k : Fin C), i = ix2 b k := ⟨i 0, i 1, eq_ix2 i⟩
  refine (scatterAdd_rows_apply wf _ idx U b k).trans ?_
  rw [broadcastInDim_scalar_apply]
  show Ideal.ofBits .f32 0x00000000#32 + _ = _
  rw [Ideal.ofBits_zero_f32, zero_add]
  rfl

/-- The product with a vector broadcast to a column and then along the rows scales every row by its entry. -/
theorem scale_eq
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (d : FVec Ideal ⟨1, ![N]⟩ .f32) (X : FVec Ideal ⟨2, ![N, C]⟩ .f32) :
    mulf X (broadcastInDim ⟨2, ![N, C]⟩ ![0, 1] h2 (broadcastInDim ⟨2, ![N, 1]⟩ ![0] h1 d)) = scaleRows d X := by
  funext i
  obtain ⟨p, q, rfl⟩ : ∃ (p : Fin N) (q : Fin C), i = ix2 p q := ⟨i 0, i 1, eq_ix2 i⟩
  show X (ix2 p q) * broadcastInDim ⟨2, ![N, C]⟩ ![0, 1] h2 (broadcastInDim ⟨2, ![N, 1]⟩ ![0] h1 d) (ix2 p q)
    = X (ix2 p q) * d (ix1 p)
  rw [broadcastInDim_col_apply, broadcastInDim_vecCol_apply]

/-- The whole aggregation: rows taken, added into a zero table, scaled. -/
theorem meanAgg_eq (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfs : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wfs)
    (hb : (⟨0, ![]⟩ : Shape).BroadcastsInDim ⟨2, ![N, C]⟩ (![] : Fin 0 → Fin 2))
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (X : FVec Ideal ⟨2, ![N, C]⟩ .f32) (s t : ICol R) (d : FVec Ideal ⟨1, ![N]⟩ .f32) :
    mulf (Host.scatterAdd (F := Ideal) sc
        (broadcastInDim ⟨2, ![N, C]⟩ ![] hb (constant (F := Ideal) ⟨0, ![]⟩ .f32 0x00000000#32)) t (Host.gather g X s))
      (broadcastInDim ⟨2, ![N, C]⟩ ![0, 1] h2 (broadcastInDim ⟨2, ![N, 1]⟩ ![0] h1 d))
      = meanAgg hN s t d X := by
  rw [gather_eq_takeRows hN wfg g hg, scatter_eq_segSum wfs sc hsc, scale_eq]
  rfl

/-- Two products, the bias row added to the first: the second layer's arrangement. -/
theorem post_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral D none A Wl)
        (broadcastInDim ⟨2, ![N, C]⟩ ![0, 1] h2 (broadcastInDim ⟨2, ![1, C]⟩ ![1] h1 b))) (Host.dotGeneral D none X Wr)
      = plus (plus (mm A Wl) (vrows b)) (mm X Wr) := by
  rw [dotGeneral_eq_mm D hD, dotGeneral_eq_mm D hD, broadcastInDim_eq_rows]
  rfl

/-- The same with the bias added last: the first layer before normalisation. -/
theorem layer1_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral D none A Wl)
        (broadcastInDim ⟨2, ![N, C]⟩ ![0, 1] h2 (broadcastInDim ⟨2, ![1, C]⟩ ![1] h1 b))) (Host.dotGeneral D none X Wr)
      = layer1 A X Wl Wr b := by
  rw [post_eq D hD]
  funext i
  show mm A Wl i + vrows b i + mm X Wr i = mm A Wl i + mm X Wr i + vrows b i
  exact add_right_comm _ _ _

/-- The source index over column `q` with coordinate `k` on the summed axis is `(k, q)`. -/
theorem lift_col (h : (⟨2, ![N, C]⟩ : Shape).Reduces [(0 : Fin 2)] ⟨1, ![C]⟩) (q : Fin C) (k : Fin N) :
    h.lift (ix1 q) k = ix2 k q :=
  funext fun c => Fin.ext (by match c with | ⟨0, _⟩ => rfl | ⟨1, _⟩ => rfl)

/-- A sum down the columns from a zero initial value, divided by a broadcast constant, is the column mean. -/
theorem colMean_eq
    (h' : (⟨2, ![N, C]⟩ : Shape).ReducesTo [(0 : Fin 2)] ⟨1, ![C]⟩)
    (h : (⟨2, ![N, C]⟩ : Shape).Reduces [(0 : Fin 2)] ⟨1, ![C]⟩)
    (hu : 0 < (⟨0, ![]⟩ : Shape).numel)
    (hb : (⟨0, ![]⟩ : Shape).BroadcastsInDim ⟨1, ![C]⟩ (![] : Fin 0 → Fin 1))
    (w : BitVec 32) (X : FVec Ideal ⟨2, ![N, C]⟩ .f32) :
    Host.divf (F := Ideal) (Host.reduceAdd (F := Ideal) X (constant (F := Ideal) ⟨0, ![]⟩ .f32 0x00000000#32) h' hu)
        (broadcastInDim ⟨1, ![C]⟩ ![] hb (constant (F := Ideal) ⟨0, ![]⟩ .f32 w))
      = colMean (Ideal.ofBits .f32 w) X := by
  funext j
  obtain ⟨q, rfl⟩ : ∃ q : Fin C, j = ix1 q := ⟨j 0, eq_ix1 j⟩
  show Ideal.div (Ideal.hostReduceAdd h' X (Ideal.ofBits .f32 0x00000000#32) (ix1 q))
      (broadcastInDim ⟨1, ![C]⟩ ![] hb (constant (F := Ideal) ⟨0, ![]⟩ .f32 w) (ix1 q))
    = Ideal.div (0 + ∑ n : Fin N, X (ix2 n q)) (Ideal.ofBits .f32 w)
  rw [Ideal.hostReduceAdd_single h' h, broadcastInDim_scalar_apply, Ideal.ofBits_zero_f32]
  exact congrArg (fun t => Ideal.div (0 + t) (Ideal.ofBits .f32 w))
    (Finset.sum_congr rfl fun k _ => congrArg X (lift_col h q k))

/-- The squared deviation from a vector laid along every row. -/
theorem sqDev_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (H : FVec Ideal ⟨2, ![N, C]⟩ .f32) (mu : FVec Ideal ⟨1, ![C]⟩ .f32) :
    mulf (subf H (broadcastInDim ⟨2, ![N, C]⟩ ![0, 1] h2 (broadcastInDim ⟨2, ![1, C]⟩ ![1] h1 mu)))
        (subf H (broadcastInDim ⟨2, ![N, C]⟩ ![0, 1] h2 (broadcastInDim ⟨2, ![1, C]⟩ ![1] h1 mu)))
      = sqDev H mu := by
  rw [broadcastInDim_eq_rows]
  funext i
  obtain ⟨p, q, rfl⟩ : ∃ (p : Fin N) (q : Fin C), i = ix2 p q := ⟨i 0, i 1, eq_ix2 i⟩
  rfl

/-- Centred, scaled by the reciprocal root of the variance plus a broadcast constant and by `gamma`, shifted by
    `beta`, cut at zero. -/
theorem bn_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (hb : (⟨0, ![]⟩ : Shape).BroadcastsInDim ⟨1, ![C]⟩ (![] : Fin 0 → Fin 1))
    (hz : (⟨0, ![]⟩ : Shape).BroadcastsInDim ⟨2, ![N, C]⟩ (![] : Fin 0 → Fin 2))
    (w : BitVec 32) (H : FVec Ideal ⟨2, ![N, C]⟩ .f32) (mu var gamma beta : FVec Ideal ⟨1, ![C]⟩ .f32) :
    maximumf
        (addf
          (mulf
            (mulf (subf H (broadcastInDim ⟨2, ![N, C]⟩ ![0, 1] h2 (broadcastInDim ⟨2, ![1, C]⟩ ![1] h1 mu)))
              (broadcastInDim ⟨2, ![N, C]⟩ ![0, 1] h2 (broadcastInDim ⟨2, ![1, C]⟩ ![1] h1
                (Host.rsqrt (F := Ideal)
                  (addf var (broadcastInDim ⟨1, ![C]⟩ ![] hb (constant (F := Ideal) ⟨0, ![]⟩ .f32 w)))))))
            (broadcastInDim ⟨2, ![N, C]⟩ ![0, 1] h2 (broadcastInDim ⟨2, ![1, C]⟩ ![1] h1 gamma)))
          (broadcastInDim ⟨2, ![N, C]⟩ ![0, 1] h2 (broadcastInDim ⟨2, ![1, C]⟩ ![1] h1 beta)))
        (broadcastInDim ⟨2, ![N, C]⟩ ![] hz (constant (F := Ideal) ⟨0, ![]⟩ .f32 0x00000000#32))
      = bnRelu (Ideal.ofBits .f32 w) H mu var gamma beta := by
  rw [maximumf_bcast_zero, broadcastInDim_eq_rows, broadcastInDim_eq_rows, broadcastInDim_eq_rows,
    broadcastInDim_eq_rows]
  funext i
  obtain ⟨p, q, rfl⟩ : ∃ (p : Fin N) (q : Fin C), i = ix2 p q := ⟨i 0, i 1, eq_ix2 i⟩
  show max (((H (ix2 p q) - mu (ix1 q))
      * Ideal.rsqrt (var (ix1 q) + broadcastInDim ⟨1, ![C]⟩ ![] hb (constant (F := Ideal) ⟨0, ![]⟩ .f32 w) (ix1 q)))
      * gamma (ix1 q) + beta (ix1 q)) 0 = _
  rw [broadcastInDim_scalar_apply]
  rfl

end Host

/-! ## The reciprocal degree -/

section Degree

variable {N R : ℕ}

/-- From zero, the float word `w` once for every update row whose start index, read as a signed integer, is `i`:
    with `w` the word of one, the number of edges into node `i`. -/
def countAt (w : BitVec 32) (dst : ICol R) : Vc N :=
  fun i => 0 + ∑ _r ∈ Finset.univ.filter (fun r : Fin R => (dst (ix2 r (0 : Fin 1))).toInt = (((i 0 : Fin N)).val : ℤ)),
    Ideal.ofBits .f32 w

/-- Where the edge count exceeds zero, one over the larger of the count and one; elsewhere zero. -/
def recipDeg (dst : ICol R) : Vc N := fun i =>
  Scalar.select (Ideal.cmp .ogt (countAt (N := N) 0x3F800000#32 dst i) (Ideal.ofBits .f32 0x00000000#32))
    (Ideal.div (Ideal.ofBits .f32 0x3F800000#32)
      (max (countAt (N := N) 0x3F800000#32 dst i) (Ideal.ofBits .f32 0x3F800000#32)))
    (Ideal.ofBits .f32 0x00000000#32)

/-- A broadcast constant added into a broadcast-zero vector at a column of start indices counts, per entry, the
    update rows that land there. -/
theorem scatter_const_eq
    (wf : ScatterDims.WF ⟨1, ![N]⟩ ⟨2, ![R, 1]⟩ ⟨1, ![R]⟩ [] [0] [0] 1)
    (sc : ScatterDims ⟨1, ![N]⟩ ⟨2, ![R, 1]⟩ ⟨1, ![R]⟩) (hsc : sc = vecScatterDims N R wf)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1))
    (w : BitVec 32) (dst : ICol R) :
    Host.scatterAdd (F := Ideal) sc
        (broadcastInDim ⟨1, ![N]⟩ ![] hbN (constant (F := Ideal) ⟨0, ![]⟩ .f32 0x00000000#32)) dst
        (broadcastInDim ⟨1, ![R]⟩ ![] hbR (constant (F := Ideal) ⟨0, ![]⟩ .f32 w))
      = countAt w dst := by
  subst hsc
  funext j
  obtain ⟨p, rfl⟩ : ∃ p : Fin N, j = ix1 p := ⟨j 0, eq_ix1 j⟩
  refine (scatterAdd_vec_apply wf _ dst _ p).trans ?_
  rw [broadcastInDim_scalar_apply]
  show Ideal.ofBits .f32 0x00000000#32 + _ = _
  rw [Ideal.ofBits_zero_f32]
  refine congrArg (fun t => (0 : EReal) + t) (Finset.sum_congr rfl fun r _ => ?_)
  exact broadcastInDim_scalar_apply hbR _ (ix1 r)

/-- The host's reciprocal degree: the count compared with zero selects one over the larger of the count and one,
    or zero. -/
theorem recipDeg_eq
    (wf : ScatterDims.WF ⟨1, ![N]⟩ ⟨2, ![R, 1]⟩ ⟨1, ![R]⟩ [] [0] [0] 1)
    (sc : ScatterDims ⟨1, ![N]⟩ ⟨2, ![R, 1]⟩ ⟨1, ![R]⟩) (hsc : sc = vecScatterDims N R wf)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1))
    (dst : ICol R) :
    select
        (cmpf .ogt
          (Host.scatterAdd (F := Ideal) sc
            (broadcastInDim ⟨1, ![N]⟩ ![] hbN (constant (F := Ideal) ⟨0, ![]⟩ .f32 0x00000000#32)) dst
            (broadcastInDim ⟨1, ![R]⟩ ![] hbR (constant (F := Ideal) ⟨0, ![]⟩ .f32 0x3F800000#32)))
          (broadcastInDim ⟨1, ![N]⟩ ![] hbN (constant (F := Ideal) ⟨0, ![]⟩ .f32 0x00000000#32)))
        (Host.divf (F := Ideal)
          (broadcastInDim ⟨1, ![N]⟩ ![] hbN (constant (F := Ideal) ⟨0, ![]⟩ .f32 0x3F800000#32))
          (maximumf
            (Host.scatterAdd (F := Ideal) sc
              (broadcastInDim ⟨1, ![N]⟩ ![] hbN (constant (F := Ideal) ⟨0, ![]⟩ .f32 0x00000000#32)) dst
              (broadcastInDim ⟨1, ![R]⟩ ![] hbR (constant (F := Ideal) ⟨0, ![]⟩ .f32 0x3F800000#32)))
            (broadcastInDim ⟨1, ![N]⟩ ![] hbN (constant (F := Ideal) ⟨0, ![]⟩ .f32 0x3F800000#32))))
        (broadcastInDim ⟨1, ![N]⟩ ![] hbN (constant (F := Ideal) ⟨0, ![]⟩ .f32 0x00000000#32))
      = recipDeg dst := by
  rw [scatter_const_eq wf sc hsc hbN hbR]
  funext j
  obtain ⟨p, rfl⟩ : ∃ p : Fin N, j = ix1 p := ⟨j 0, eq_ix1 j⟩
  show Scalar.select
      (Ideal.cmp .ogt (countAt (N := N) 0x3F800000#32 dst (ix1 p))
        (broadcastInDim ⟨1, ![N]⟩ ![] hbN (constant (F := Ideal) ⟨0, ![]⟩ .f32 0x00000000#32) (ix1 p)))
      (Ideal.div (broadcastInDim ⟨1, ![N]⟩ ![] hbN (constant (F := Ideal) ⟨0, ![]⟩ .f32 0x3F800000#32) (ix1 p))
        (max (countAt (N := N) 0x3F800000#32 dst (ix1 p))
          (broadcastInDim ⟨1, ![N]⟩ ![] hbN (constant (F := Ideal) ⟨0, ![]⟩ .f32 0x3F800000#32) (ix1 p))))
      (broadcastInDim ⟨1, ![N]⟩ ![] hbN (constant (F := Ideal) ⟨0, ![]⟩ .f32 0x00000000#32) (ix1 p)) = _
  rw [broadcastInDim_scalar_apply, broadcastInDim_scalar_apply]
  rfl

/-- Every entry of the reciprocal degree is zero or one over the larger of that node's edge count and one. -/
theorem recipDeg_cases (dst : ICol R) (i : (⟨1, ![N]⟩ : Shape).Idx) :
    recipDeg (N := N) dst i = Ideal.ofBits .f32 0x00000000#32
      ∨ recipDeg (N := N) dst i = Ideal.div (Ideal.ofBits .f32 0x3F800000#32)
          (max (countAt (N := N) 0x3F800000#32 dst i) (Ideal.ofBits .f32 0x3F800000#32)) := by
  unfold recipDeg Scalar.select
  split
  · exact Or.inr rfl
  · exact Or.inl rfl

end Degree

end Cert.Sage

end
-- ==== Proof.KernelHost.lean ====
/-
  The kernel program's host stretches, each as the specification's function of its operands: the aggregation as the
  host spells it is the mean aggregation at the wrapped source column and the destination column; the host's column
  means, squared deviations and guarded reciprocal degree are the specification's; a vector reshaped to a one-row
  array and read back along that row is the vector. Each is the general host lemma at the kernel program's own
  dimension records.
-/
import proofs.«103092_j3092376453137_2_alg».proof.Proof.KernelFold
import proofs.«103092_j3092376453137_2_alg».proof.Proof.LibSageHost

noncomputable section

namespace Cert.KernelIdeal.Host

open Cert.KernelIdeal Cert.KernelIdeal.Gen Cert.KernelIdeal.Fold Idealize.ShloMosaic Idealize.ShloMosaic.ValueIdx
  Cert.Sage Cert.DenseLib Cert.RowsLib Cert.ScatterLib Cert.LayoutLib

/-- The node count is positive. -/
theorem hN : 0 < 50000 := by decide

/-- The host's aggregation is the mean aggregation at the wrapped source column and the destination column. -/
theorem aggHost_eq (X : FVec Ideal S50000x64 .f32) (v1 v3 : IVec S800000 32) (d : FVec Ideal S50000 .f32) :
    aggHost X v1 v3 d = meanAgg hN (srcCol v1) (dstCol v3) d X := by
  unfold aggHost
  exact meanAgg_eq hN gather_S50000x64_S800000x1_S800000x64_1_0_n_n_0_1_164_wf _ rfl
    scatter_S50000x64_S800000x1_S800000x64_1_0_0_1_wf _ rfl _ _ _ X (srcCol v1) (dstCol v3) d

/-- The host's column means are the column means at the node count's float word. -/
theorem meanHost_eq (H : FVec Ideal S50000x128 .f32) :
    meanHost H = colMean (Ideal.ofBits .f32 0x47435000#32) H := by
  unfold meanHost
  exact colMean_eq _ (by decide) _ _ _ H

/-- The host's squared deviations are the squared deviations. -/
theorem sqDevHost_eq (H : FVec Ideal S50000x128 .f32) (mu : FVec Ideal S128 .f32) : sqDevHost H mu = sqDev H mu := by
  unfold sqDevHost
  exact sqDev_eq _ _ H mu

/-- The host's guarded reciprocal of the degree is the reciprocal degree of the destination column. -/
theorem degInv_eq (v3 : IVec S800000 32) : degInv v3 = recipDeg (dstCol v3) := by
  unfold degInv deg
  exact recipDeg_eq scatter_S50000_S800000x1_S800000_n_0_0_1_wf _ rfl _ _ (dstCol v3)

/-- A vector reshaped to a one-row array and read back along that row is the vector. -/
theorem rowVec_shapeCast {C : ℕ} (h : (⟨1, ![C]⟩ : Shape).ShapeCasts ⟨2, ![1, C]⟩) (v : FVec Ideal ⟨1, ![C]⟩ .f32) :
    rowVec (shapeCast ⟨2, ![1, C]⟩ v h) = v := by
  funext j
  obtain ⟨q, rfl⟩ : ∃ q : Fin C, j = ix1 q := ⟨j 0, eq_ix1 j⟩
  show shapeCast ⟨2, ![1, C]⟩ v h (ix2 (0 : Fin 1) q) = v (ix1 q)
  exact shapeCast_apply v h (ix2 (0 : Fin 1) q) (ix1 q) (by
    rw [Shape.rowMajor_val_two, Shape.rowMajor_val_one]
    show q.val = 0 * C + q.val
    omega)

/-- The two widths the kernel reshapes: the hidden width and the output width. -/
theorem rowVec_shapeCast_128 (v : FVec Ideal S128 .f32) : rowVec (shapeCast S1x128 v shapeCasts_S128_S1x128) = v :=
  rowVec_shapeCast _ v
theorem rowVec_shapeCast_64 (v : FVec Ideal S64 .f32) : rowVec (shapeCast S1x64 v shapeCasts_S64_S1x64) = v :=
  rowVec_shapeCast _ v

end Cert.KernelIdeal.Host

end
-- ==== Proof.RefValue.lean ====
/-
  The reference program's result, read over the extended reals, is the specification's function of the argument
  arrays. The program is read stage by stage: the two aggregations (rows of a table taken at the source indices,
  summed per destination row from a zero table, every row scaled by its reciprocal degree), the two products with
  their bias rows, the column means and variances (a sum from zero divided by the node count), the normalisation
  followed by the cut at zero. Each stage is an equation between the program's own stage and the host's spelling of
  the mathematics, a lemma about arbitrary arrays; the last theorem chains them.
-/
import proofs.«103092_j3092376453137_2_alg».proof.Proof.RefRead
import proofs.«103092_j3092376453137_2_alg».proof.Proof.LibSageHost

noncomputable section

namespace Cert.ReferenceIdeal.RefValue

open Cert.ReferenceIdeal Cert.ReferenceIdeal.Gen Cert.ReferenceIdeal.ReadP Idealize.ShloMosaic Idealize.ShloMosaic.ValueIdx
  Cert.Sage Cert.DenseLib Cert.RowsLib Cert.ScatterLib Cert.LayoutLib

/-! ## The program's own stages -/

/-- The node count is positive. -/
theorem hN : 0 < 50000 := by decide

/-- The column of (wrapped) source indices the two gathers read, as the program computes it from the edge array. -/
def srcR (ei : IVec S2x800000 32) : ICol 800000 := val_main_v20 (F := Ideal) ei

/-- The column of destination indices the three scatters read. -/
def dstR (ei : IVec S2x800000 32) : ICol 800000 := val_main_v6 (F := Ideal) ei

/-- The reciprocal-degree vector, as the program computes it from the edge array. -/
def dR (ei : IVec S2x800000 32) : Vc 50000 := val_main_v14 (F := Ideal) ei

/-- The second gather reads the same column of source indices as the first. -/
theorem v65_eq (ei : IVec S2x800000 32) : val_main_v65 (F := Ideal) ei = srcR ei := rfl
/-- The two row scatters read the same column of destination indices as the degree count. -/
theorem v23_eq (ei : IVec S2x800000 32) : val_main_v23 (F := Ideal) ei = dstR ei := rfl
theorem v68_eq (ei : IVec S2x800000 32) : val_main_v68 (F := Ideal) ei = dstR ei := rfl
theorem v20_eq (ei : IVec S2x800000 32) : val_main_v20 (F := Ideal) ei = srcR ei := rfl
theorem v14_eq (ei : IVec S2x800000 32) : val_main_v14 (F := Ideal) ei = dR ei := rfl

/-- The node count as a float word, and the variance's additive constant. -/
abbrev cN : EReal := Ideal.ofBits .f32 0x47435000#32
abbrev eps : EReal := Ideal.ofBits .f32 0x3727C5AC#32

section Stages

variable (x : FVec Ideal S50000x64 .f32) (ei : IVec S2x800000 32)
  (W1l : FVec Ideal S64x128 .f32) (b1 : FVec Ideal S128 .f32) (W1r : FVec Ideal S64x128 .f32)
  (gamma beta : FVec Ideal S128 .f32)
  (W2l : FVec Ideal S128x64 .f32) (b2 : FVec Ideal S64 .f32) (W2r : FVec Ideal S128x64 .f32)

/-- The first aggregation. -/
theorem agg1_eq : val_main_v27 (F := Ideal) x ei = meanAgg hN (srcR ei) (dstR ei) (dR ei) x := by
  unfold val_main_v27 val_main_v26 val_main_v25 val_main_v24 val_main_v22 val_main_cst_6 val_main_v21
  rw [v23_eq, v20_eq, v14_eq]
  exact meanAgg_eq hN gather_S50000x64_S800000x1_S800000x64_1_0_n_n_0_1_164_wf _ rfl
    scatter_S50000x64_S800000x1_S800000x64_1_0_0_1_wf _ rfl _ _ _ x (srcR ei) (dstR ei) (dR ei)

/-- The first layer before normalisation. -/
theorem h1_eq : val_main_v33 (F := Ideal) x ei W1l b1 W1r
    = layer1 (meanAgg hN (srcR ei) (dstR ei) (dR ei) x) x W1l W1r b1 := by
  unfold val_main_v33 val_main_v32 val_main_v31 val_main_v30 val_main_v29 val_main_v28
  rw [agg1_eq]
  exact layer1_eq _ rfl _ _ _ x W1l W1r b1

/-- The column means of the first layer. -/
theorem mean_eq : val_main_v36 (F := Ideal) x ei W1l b1 W1r
    = colMean cN (val_main_v33 (F := Ideal) x ei W1l b1 W1r) := by
  unfold val_main_v36 val_main_v35 val_main_cst_8 val_main_v34 val_main_cst_7
  exact colMean_eq _ (by decide) _ _ _ _

/-- The column variances of the first layer. -/
theorem var_eq : val_main_v43 (F := Ideal) x ei W1l b1 W1r
    = colMean cN (sqDev (val_main_v33 (F := Ideal) x ei W1l b1 W1r) (val_main_v36 (F := Ideal) x ei W1l b1 W1r)) := by
  unfold val_main_v43 val_main_v42 val_main_cst_10 val_main_v41 val_main_cst_9 val_main_v40 val_main_v39 val_main_v38
    val_main_v37
  rw [sqDev_eq]
  exact colMean_eq _ (by decide) _ _ _ _

/-- The normalised first layer, cut at zero, in terms of the first layer, its means and its variances. -/
theorem bn_stage_eq : val_main_v59 (F := Ideal) x ei W1l b1 W1r gamma beta
    = bnRelu eps (val_main_v33 (F := Ideal) x ei W1l b1 W1r) (val_main_v36 (F := Ideal) x ei W1l b1 W1r)
        (val_main_v43 (F := Ideal) x ei W1l b1 W1r) gamma beta := by
  unfold val_main_v59 val_main_call1_v0 val_main_call1_cst val_main_v58 val_main_v57 val_main_v56 val_main_v55
    val_main_v54 val_main_v53 val_main_v52 val_main_v51 val_main_v50 val_main_v49 val_main_v48 val_main_v47
    val_main_cst_11 val_main_v46 val_main_v45 val_main_v44
  exact bn_eq _ _ _ _ _ _ _ _ gamma beta

/-- The hidden features. -/
theorem hidden_eq : val_main_v59 (F := Ideal) x ei W1l b1 W1r gamma beta
    = Cert.Sage.hidden cN eps (meanAgg hN (srcR ei) (dstR ei) (dR ei) x) x W1l W1r b1 gamma beta := by
  rw [bn_stage_eq, var_eq, mean_eq, h1_eq]
  rfl

/-- The second aggregation, of the hidden features. -/
theorem agg2_eq : val_main_v72 (F := Ideal) x ei W1l b1 W1r gamma beta
    = meanAgg hN (srcR ei) (dstR ei) (dR ei) (val_main_v59 (F := Ideal) x ei W1l b1 W1r gamma beta) := by
  unfold val_main_v72 val_main_v71 val_main_v70 val_main_v69 val_main_v67 val_main_cst_14 val_main_v66
  rw [v68_eq, v65_eq, v14_eq]
  exact meanAgg_eq hN gather_S50000x128_S800000x1_S800000x128_1_0_n_n_0_1_1128_wf _ rfl
    scatter_S50000x128_S800000x1_S800000x128_1_0_0_1_wf _ rfl _ _ _ _ (srcR ei) (dstR ei) (dR ei)

/-- THE REFERENCE'S RESULT is the second layer, weight applied after the aggregation, of the hidden features. -/
theorem ref_value : val_main_v78 (F := Ideal) x ei W1l b1 W1r gamma beta W2l b2 W2r
    = outPost hN (srcR ei) (dstR ei) (dR ei)
        (Cert.Sage.hidden cN eps (meanAgg hN (srcR ei) (dstR ei) (dR ei) x) x W1l W1r b1 gamma beta) W2l W2r b2 := by
  unfold val_main_v78 val_main_v77 val_main_v76 val_main_v75 val_main_v74 val_main_v73
  rw [agg2_eq, hidden_eq]
  exact post_eq _ rfl _ _ _ _ W2l W2r b2

end Stages

/-! ## The reciprocal degree -/

/-- The degree count reads the same column of destination indices. -/
theorem v6_eq (ei : IVec S2x800000 32) : val_main_v6 (F := Ideal) ei = dstR ei := rfl

/-- The reciprocal degree the program computes is the host's reciprocal degree of the destination column: where
    the edge count exceeds zero, one over the larger of the count and one; elsewhere zero. -/
theorem dR_eq (ei : IVec S2x800000 32) : dR ei = recipDeg (dstR ei) := by
  unfold dR val_main_v14 val_main_call0_v1 val_main_call0_v0 val_main_cst_4 val_main_v13 val_main_v12 val_main_cst_3
    val_main_v11 val_main_v10 val_main_cst_2 val_main_v9 val_main_v8 val_main_cst_1 val_main_v7 val_main_v5
    val_main_cst_0 val_main_v4 val_main_cst
  rw [v6_eq]
  exact recipDeg_eq scatter_S50000_S800000x1_S800000_n_0_0_1_wf _ rfl _ _ (dstR ei)

/-- So every entry of the reciprocal degree is zero or one over the larger of that node's edge count and one. -/
theorem dR_cases (ei : IVec S2x800000 32) (i : (⟨1, ![50000]⟩ : Shape).Idx) :
    dR ei i = Ideal.ofBits .f32 0x00000000#32
      ∨ dR ei i = Ideal.div (Ideal.ofBits .f32 0x3F800000#32)
          (max (countAt (N := 50000) 0x3F800000#32 (dstR ei) i) (Ideal.ofBits .f32 0x3F800000#32)) := by
  rw [dR_eq]
  exact recipDeg_cases (dstR ei) i

/-! ## The run's own result term -/

section Run

open Idealize.ShloMosaic.TcCoe Idealize.SL.Sem Idealize.ShloMosaic.StableHlo

/-- The same about the run's own result term: the run ends with its result buffer at the specification's function of
    the argument buffers' launch contents. -/
theorem ref_value_run (m : (ℓ : Loc nD τ sig) → Buf (Elt Ideal) ℓ) (c : Dev nD) :
    Cert.ReferenceIdeal.ValueP.res_main_v78 (F := Ideal) m c
      = outPost hN (srcR (m ((c.tc : Thread nD τ).loc main_arg1))) (dstR (m ((c.tc : Thread nD τ).loc main_arg1)))
          (dR (m ((c.tc : Thread nD τ).loc main_arg1)))
          (Cert.Sage.hidden cN eps
            (meanAgg hN (srcR (m ((c.tc : Thread nD τ).loc main_arg1))) (dstR (m ((c.tc : Thread nD τ).loc main_arg1)))
              (dR (m ((c.tc : Thread nD τ).loc main_arg1))) (m ((c.tc : Thread nD τ).loc main_arg0)))
            (m ((c.tc : Thread nD τ).loc main_arg0)) (m ((c.tc : Thread nD τ).loc main_arg2))
            (m ((c.tc : Thread nD τ).loc main_arg4)) (m ((c.tc : Thread nD τ).loc main_arg3))
            (m ((c.tc : Thread nD τ).loc main_arg5)) (m ((c.tc : Thread nD τ).loc main_arg6)))
          (m ((c.tc : Thread nD τ).loc main_arg7)) (m ((c.tc : Thread nD τ).loc main_arg9))
          (m ((c.tc : Thread nD τ).loc main_arg8)) :=
  (val_main_v78_eq m c).trans (ref_value _ _ _ _ _ _ _ _ _ _)

end Run

end Cert.ReferenceIdeal.RefValue

end
-- ==== Proof.EdgeCols.lean ====
/-
  The two programs read the same edge columns: the kernel program's wrapped source column of its own source row is
  the reference program's source column, and likewise the destination columns. Both programs spell the same slice of
  the edge array, reshape, comparison with zero, shift by the node count and selection, so each equation holds by
  unfolding the two spellings.
-/
import proofs.«103092_j3092376453137_2_alg».proof.Proof.KernelFold
import proofs.«103092_j3092376453137_2_alg».proof.Proof.RefValue

noncomputable section

namespace Cert.EdgeCols

open Idealize.ShloMosaic

/-- The kernel's wrapped source column of its own source row is the reference's source column: the two programs
    spell the same slice, reshape, comparison with zero, shift by the node count and selection. -/
theorem srcCol_eq (ei : IVec Cert.KernelIdeal.S2x800000 32) :
    Cert.KernelIdeal.Fold.srcCol (Cert.KernelIdeal.Fold.srcVec ei) = Cert.ReferenceIdeal.RefValue.srcR ei := by
  unfold Cert.KernelIdeal.Fold.srcCol Cert.KernelIdeal.Fold.srcVec Cert.ReferenceIdeal.RefValue.srcR
    Cert.ReferenceIdeal.ReadP.val_main_v20 Cert.ReferenceIdeal.ReadP.val_main_v19
    Cert.ReferenceIdeal.ReadP.val_main_v18 Cert.ReferenceIdeal.ReadP.val_main_v17 Cert.ReferenceIdeal.ReadP.val_main_c_5
    Cert.ReferenceIdeal.ReadP.val_main_v16 Cert.ReferenceIdeal.ReadP.val_main_v15 Cert.ReferenceIdeal.ReadP.val_main_c
    Cert.ReferenceIdeal.ReadP.val_main_v1 Cert.ReferenceIdeal.ReadP.val_main_v0
  rfl

/-- The kernel's destination column of its own destination row is the reference's destination column. -/
theorem dstCol_eq (ei : IVec Cert.KernelIdeal.S2x800000 32) :
    Cert.KernelIdeal.Fold.dstCol (Cert.KernelIdeal.Fold.dstVec ei) = Cert.ReferenceIdeal.RefValue.dstR ei := by
  unfold Cert.KernelIdeal.Fold.dstCol Cert.KernelIdeal.Fold.dstVec Cert.ReferenceIdeal.RefValue.dstR
    Cert.ReferenceIdeal.ReadP.val_main_v6 Cert.ReferenceIdeal.ReadP.val_main_v3 Cert.ReferenceIdeal.ReadP.val_main_v2
  rfl

end Cert.EdgeCols

end
-- ==== Proof.LibSageAlgebra.lean ====
/-
  The algebra of the two-layer mean-aggregation network over the extended reals: where every entry of the operands
  is a real number, the weight may be applied before or after the aggregation; every operation of the network keeps
  all entries real; the column variance is a nonnegative real, so the reciprocal root of the variance plus a positive
  real is again real.
-/
import proofs.«103092_j3092376453137_2_alg».proof.Proof.LibSageSpec
import Idealize.ShloMosaic.PureOps.Ideal

noncomputable section

namespace Cert.Sage

open Idealize.ShloMosaic Idealize.ShloMosaic.ValueIdx Cert.DenseLib Cert.RowsLib

/-! ## Real entries -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array whose entries are all real is the coercion of an array of reals. -/
theorem IsFin.exists_real {s : Shape} {X : s.Idx → EReal} (h : IsFin X) :
    ∃ x : s.Idx → ℝ, X = fun i => (x i : EReal) := by
  choose x hx using h
  exact ⟨x, funext hx⟩

/-! ## The weight before or after the aggregation -/

/-- With real entries, aggregating the products is the product of the aggregate: at entry (n, j) both are the sum,
    over the update rows e sent to n and over k, of H (c e, k) · Wl (k, j) · d n, by distributivity in the reals. -/
theorem meanAgg_mm {N K C R : ℕ} (hN : 0 < N) (src dst : ICol R) (d : Vc N) (H : Mat N K) (Wl : Mat K C)
    (hH : IsFin H) (hW : IsFin Wl) (hd : IsFin d) :
    meanAgg hN src dst d (mm H Wl) = mm (meanAgg hN src dst d H) Wl := by
  obtain ⟨h, rfl⟩ := hH.exists_real
  obtain ⟨w, rfl⟩ := hW.exists_real
  obtain ⟨e, rfl⟩ := hd.exists_real
  funext i
  obtain ⟨n, j, rfl⟩ : ∃ (n : Fin N) (j : Fin C), i = ix2 n j := ⟨i 0, i 1, eq_ix2 i⟩
  show (∑ r ∈ Finset.univ.filter (fun r : Fin R => (dst (ix2 r (0 : Fin 1))).toInt = ((n : Fin N).val : ℤ)),
      ∑ k : Fin K, ((h (ix2 (rowOf N hN (src (ix2 r (0 : Fin 1)))) k) : ℝ) : EReal) * ((w (ix2 k j) : ℝ) : EReal))
        * ((e (ix1 n) : ℝ) : EReal)
    = ∑ k : Fin K, ((∑ r ∈ Finset.univ.filter (fun r : Fin R => (dst (ix2 r (0 : Fin 1))).toInt = ((n : Fin N).val : ℤ)),
      ((h (ix2 (rowOf N hN (src (ix2 r (0 : Fin 1)))) k) : ℝ) : EReal)) * ((e (ix1 n) : ℝ) : EReal))
        * ((w (ix2 k j) : ℝ) : EReal)
  simp only [← EReal.coe_mul, ← coe_sum]
  congr 1
  rw [Finset.sum_comm, Finset.sum_mul]
  refine Finset.sum_congr rfl fun k _ => ?_
  rw [← Finset.sum_mul]
  ring

/-- THE TWO ARRANGEMENTS OF THE SECOND LAYER AGREE where the features, the first weight and the scale are real:
    the aggregate term is the same by distributivity, and the other two terms are added in the other order. -/
theorem outPre_eq_outPost {N K C R : ℕ} (hN : 0 < N) (src dst : ICol R) (d : Vc N) (H : Mat N K) (Wl Wr : Mat K C)
    (b : Vc C) (hH : IsFin H) (hW : IsFin Wl) (hd : IsFin d) :
    outPre hN src dst d H Wl Wr b = outPost hN src dst d H Wl Wr b := by
  funext i
  show (meanAgg hN src dst d (mm H Wl) i + mm H Wr i) + vrows b i
    = (mm (meanAgg hN src dst d H) Wl i + vrows b i) + mm H Wr i
  rw [meanAgg_mm hN src dst d H Wl hH hW hd, add_right_comm]

/-! ## Every operation keeps the entries real -/

theorem real_zero : ∃ r : ℝ, (0 : EReal) = (r : EReal) := ⟨0, EReal.coe_zero.symm⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The greater of two reals, taken in the extended reals, is the greater of them in the reals. -/
theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, coe_max_real a b⟩

theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem isFin_mm {M K N : ℕ} {X : Mat M K} {W : Mat K N} (hX : IsFin X) (hW : IsFin W) : IsFin (mm X W) :=
  fun _ => real_sum _ _ fun _ _ => real_mul (hX _) (hW _)

theorem isFin_plus {s : Shape} {X Y : s.Idx → EReal} (hX : IsFin X) (hY : IsFin Y) : IsFin (plus X Y) :=
  fun i => real_add (hX i) (hY i)

theorem isFin_vrows {M C : ℕ} {b : Vc C} (hb : IsFin b) : IsFin (vrows (M := M) b) := fun _ => hb _

theorem isFin_rowVec {C : ℕ} {B : Mat 1 C} (hB : IsFin B) : IsFin (rowVec B) := fun _ => hB _

theorem isFin_relu {s : Shape} {X : s.Idx → EReal} (hX : IsFin X) : IsFin (relu X) :=
  fun i => real_max (hX i) real_zero

theorem isFin_takeRows {N C R : ℕ} (hN : 0 < N) (src : ICol R) {X : Mat N C} (hX : IsFin X) :
    IsFin (takeRows hN src X) := fun _ => hX _

theorem isFin_segSum {N C R : ℕ} (dst : ICol R) {U : Mat R C} (hU : IsFin U) : IsFin (segSum (N := N) dst U) :=
  fun _ => real_sum _ _ fun _ _ => hU _

theorem isFin_scaleRows {N C : ℕ} {d : Vc N} {X : Mat N C} (hd : IsFin d) (hX : IsFin X) : IsFin (scaleRows d X) :=
  fun i => real_mul (hX i) (hd _)

theorem isFin_meanAgg {N C R : ℕ} (hN : 0 < N) (src dst : ICol R) {d : Vc N} {X : Mat N C} (hd : IsFin d)
    (hX : IsFin X) : IsFin (meanAgg hN src dst d X) :=
  isFin_scaleRows hd (isFin_segSum dst (isFin_takeRows hN src hX))

/-- A column mean over a positive real count: the sum of reals times the reciprocal of the count. -/
theorem isFin_colMean {N C : ℕ} (cN : EReal) (hc : ∃ r : ℝ, 0 < r ∧ cN = (r : EReal)) {X : Mat N C}
    (hX : IsFin X) : IsFin (colMean cN X) := by
  obtain ⟨r, hr, rfl⟩ := hc
  intro j
  show ∃ v : ℝ, Ideal.div (0 + ∑ n : Fin N, X (ix2 n (n1 := C) (j 0))) (r : EReal) = (v : EReal)
  rw [Ideal.div_coe (ne_of_gt hr)]
  exact real_mul (real_add real_zero (real_sum _ _ fun n _ => hX _)) ⟨1 / r, rfl⟩

theorem isFin_layer1 {N K C : ℕ} {A X : Mat N K} {Wl Wr : Mat K C} {b : Vc C} (hA : IsFin A) (hX : IsFin X)
    (hWl : IsFin Wl) (hWr : IsFin Wr) (hb : IsFin b) : IsFin (layer1 A X Wl Wr b) :=
  isFin_plus (isFin_plus (isFin_mm hA hWl) (isFin_mm hX hWr)) (isFin_vrows hb)

/-! ## The variance is a nonnegative real, so the normalisation stays real -/

theorem nn_zero : ∃ r : ℝ, 0 ≤ r ∧ (0 : EReal) = (r : EReal) := ⟨0, le_rfl, EReal.coe_zero.symm⟩

theorem nn_add {x y : EReal} (hx : ∃ r : ℝ, 0 ≤ r ∧ x = (r : EReal)) (hy : ∃ r : ℝ, 0 ≤ r ∧ y = (r : EReal)) :
    ∃ r : ℝ, 0 ≤ r ∧ x + y = (r : EReal) := by
  obtain ⟨a, ha, rfl⟩ := hx
  obtain ⟨b, hb, rfl⟩ := hy
  exact ⟨a + b, add_nonneg ha hb, (EReal.coe_add a b).symm⟩

theorem nn_mul {x y : EReal} (hx : ∃ r : ℝ, 0 ≤ r ∧ x = (r : EReal)) (hy : ∃ r : ℝ, 0 ≤ r ∧ y = (r : EReal)) :
    ∃ r : ℝ, 0 ≤ r ∧ x * y = (r : EReal) := by
  obtain ⟨a, ha, rfl⟩ := hx
  obtain ⟨b, hb, rfl⟩ := hy
  exact ⟨a * b, mul_nonneg ha hb, (EReal.coe_mul a b).symm⟩

/-- The square of a real is a nonnegative real. -/
theorem nn_sq {x : EReal} (hx : ∃ r : ℝ, x = (r : EReal)) : ∃ r : ℝ, 0 ≤ r ∧ x * x = (r : EReal) := by
  obtain ⟨a, rfl⟩ := hx
  exact ⟨a * a, mul_self_nonneg a, (EReal.coe_mul a a).symm⟩

theorem nn_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    rw [Finset.sum_insert ha]
    exact nn_add (h a (Finset.mem_insert_self a s)) (ih fun i hi => h i (Finset.mem_insert_of_mem hi))

theorem isFin_sqDev {N C : ℕ} {X : Mat N C} {mu : Vc C} (hX : IsFin X) (hmu : IsFin mu) : IsFin (sqDev X mu) :=
  fun i => real_mul (real_sub (hX i) (hmu _)) (real_sub (hX i) (hmu _))

theorem sqDev_nonneg {N C : ℕ} {X : Mat N C} {mu : Vc C} (hX : IsFin X) (hmu : IsFin mu) :
    ∀ i, ∃ v : ℝ, 0 ≤ v ∧ sqDev X mu i = (v : EReal) := fun i => nn_sq (real_sub (hX i) (hmu _))

/-- A column mean of nonnegative reals over a positive real count is a nonnegative real. -/
theorem colMean_nonneg {N C : ℕ} (cN : EReal) (hc : ∃ r : ℝ, 0 < r ∧ cN = (r : EReal)) {X : Mat N C}
    (hX : ∀ i, ∃ v : ℝ, 0 ≤ v ∧ X i = (v : EReal)) : ∀ j, ∃ v : ℝ, 0 ≤ v ∧ colMean cN X j = (v : EReal) := by
  obtain ⟨r, hr, rfl⟩ := hc
  intro j
  show ∃ v : ℝ, 0 ≤ v ∧ Ideal.div (0 + ∑ n : Fin N, X (ix2 n (n1 := C) (j 0))) (r : EReal) = (v : EReal)
  rw [Ideal.div_coe (ne_of_gt hr)]
  exact nn_mul (nn_add nn_zero (nn_sum _ _ fun n _ => hX _)) ⟨1 / r, (one_div_pos.mpr hr).le, rfl⟩

/-- The reciprocal root of a nonnegative real plus a positive real is a real: the argument is a positive real. -/
theorem real_rsqrt {x y : EReal} (hx : ∃ v : ℝ, 0 ≤ v ∧ x = (v : EReal)) (hy : ∃ e : ℝ, 0 < e ∧ y = (e : EReal)) :
    ∃ r : ℝ, Ideal.rsqrt (x + y) = (r : EReal) := by
  obtain ⟨v, hv, rfl⟩ := hx
  obtain ⟨e, he, rfl⟩ := hy
  have hpos : 0 < v + e := add_pos_of_nonneg_of_pos hv he
  rw [← EReal.coe_add, Ideal.rsqrt_coe, if_neg (not_lt.mpr hpos.le), if_neg hpos.ne']
  exact ⟨_, rfl⟩

theorem isFin_bnRelu {N C : ℕ} (eps : EReal) (he : ∃ e : ℝ, 0 < e ∧ eps = (e : EReal)) {X : Mat N C}
    {mu var gamma beta : Vc C} (hX : IsFin X) (hmu : IsFin mu)
    (hvar : ∀ j, ∃ v : ℝ, 0 ≤ v ∧ var j = (v : EReal)) (hg : IsFin gamma) (hb : IsFin beta) :
    IsFin (bnRelu eps X mu var gamma beta) :=
  fun i => real_max (real_add (real_mul (real_mul (real_sub (hX i) (hmu _)) (real_rsqrt (hvar _) he)) (hg _))
    (hb _)) real_zero

/-- THE HIDDEN FEATURES ARE REAL where every operand is real, the count is a positive real and eps is a positive
    real: the variance is a mean of squares of reals, a nonnegative real, so variance + eps is a positive real and
    its reciprocal root is real. -/
theorem isFin_hidden {N K C : ℕ} (cN eps : EReal) (hc : ∃ r : ℝ, 0 < r ∧ cN = (r : EReal))
    (he : ∃ e : ℝ, 0 < e ∧ eps = (e : EReal)) (A X : Mat N K) (Wl Wr : Mat K C) (b gamma beta : Vc C)
    (hA : IsFin A) (hX : IsFin X) (hWl : IsFin Wl) (hWr : IsFin Wr) (hb : IsFin b) (hg : IsFin gamma)
    (hbe : IsFin beta) : IsFin (hidden cN eps A X Wl Wr b gamma beta) :=
  have hL := isFin_layer1 hA hX hWl hWr hb
  have hmu := isFin_colMean cN hc hL
  isFin_bnRelu eps he hL hmu (colMean_nonneg cN hc (sqDev_nonneg hL hmu)) hg hbe

/-! ## Three float patterns as reals, and the reciprocal degree -/

/-- The pattern of `50000.0`: exponent field 142, fraction field 4411392, so (2^23 + 4411392) · 2^(142 - 127 - 23)
    = 12800000 / 256 = 50000. -/
theorem lit_50000 : ∃ r : ℝ, 0 < r ∧ Ideal.ofBits .f32 0x47435000#32 = (r : EReal) := by
  refine ⟨50000, by norm_num, ?_⟩
  simp [Ideal.ofBits, Ideal.ieee, -EReal.coe_mul]; norm_num

/-- The pattern nearest `1e-5`: exponent field 110, fraction field 2606508, so 10995116 · 2^(-40), a positive real. -/
theorem lit_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The pattern of `1.0`. -/
theorem lit_one : Ideal.ofBits .f32 0x3F800000#32 = ((1 : ℝ) : EReal) := by
  simp [Ideal.ofBits, Ideal.ieee, -EReal.coe_mul]; norm_num

/-- A reciprocal degree is real: each entry is zero or one over the greater of a real degree and one, and that
    greater value is a real at least one, so not zero. -/
theorem isFin_degInv {N : ℕ} (deg d : Vc N) (one zero : EReal) (h1 : one = ((1 : ℝ) : EReal)) (h0 : zero = 0)
    (hdeg : IsFin deg) (hd : ∀ i, d i = zero ∨ d i = Ideal.div one (max (deg i) one)) : IsFin d := by
  subst h1 h0
  intro i
  rcases hd i with h | h
  · exact ⟨0, by rw [h, EReal.coe_zero]⟩
  · obtain ⟨g, hg⟩ := hdeg i
    rw [h, hg, coe_max_real, Ideal.div_coe (ne_of_gt (lt_of_lt_of_le one_pos (le_max_right g 1)))]
    exact ⟨_, (EReal.coe_mul _ _).symm⟩

end Cert.Sage

end
-- ==== Proof.Bridge.lean ====
/-
  The two programs compute one function. The idealized kernel's result, with every host operation read as its
  mathematical combinator, is the second layer with the weight applied BEFORE the aggregation; the reference's is the
  same layer with the weight applied AFTER it. The two arrangements agree when the hidden features, the weight and
  the reciprocal degrees are real numbers — which they are when every float input is finite: the first layer is a
  finite sum of products of reals, its column variance is a nonnegative real so the root's argument is positive, and a
  reciprocal degree is zero or one over a count that is at least one.
-/
import proofs.«103092_j3092376453137_2_alg».proof.Proof.KernelValue
import proofs.«103092_j3092376453137_2_alg».proof.Proof.KernelHost
import proofs.«103092_j3092376453137_2_alg».proof.Proof.EdgeCols
import proofs.«103092_j3092376453137_2_alg».proof.Proof.RefValue
import proofs.«103092_j3092376453137_2_alg».proof.Proof.LibSageAlgebra

set_option maxRecDepth 16384

noncomputable section

namespace Cert.Bridge

open Idealize.ShloMosaic Idealize.ShloMosaic.ValueIdx
open Cert.Sage Cert.DenseLib
open Cert.KernelIdeal.Fold Cert.KernelIdeal.KVal

/-- The table's height is positive. -/
theorem hN : 0 < 50000 := by norm_num

/-- The divisor of the column means. -/
abbrev cN : EReal := Ideal.ofBits .f32 0x47435000#32

variable (x : FVec Ideal Cert.KernelIdeal.S50000x64 .f32) (ei : IVec Cert.KernelIdeal.S2x800000 32)
  (W1l : FVec Ideal Cert.KernelIdeal.S64x128 .f32) (b1 : FVec Ideal Cert.KernelIdeal.S128 .f32)
  (W1r : FVec Ideal Cert.KernelIdeal.S64x128 .f32) (gamma beta : FVec Ideal Cert.KernelIdeal.S128 .f32)
  (W2l : FVec Ideal Cert.KernelIdeal.S128x64 .f32) (b2 : FVec Ideal Cert.KernelIdeal.S64 .f32)
  (W2r : FVec Ideal Cert.KernelIdeal.S128x64 .f32)

/-- The kernel's first layer is the specification's, over the mean aggregation. -/
theorem H1_eq : H1 x ei W1l b1 W1r
    = layer1 (meanAgg hN (srcCol (srcVec ei)) (dstCol (dstVec ei)) (degInv (dstVec ei)) x) x W1l W1r b1 := by
  unfold H1
  rw [Cert.KernelIdeal.Host.aggHost_eq, Cert.KernelIdeal.Host.rowVec_shapeCast_128]

/-- The kernel's hidden features are the specification's. -/
theorem Hk_eq : Hk x ei W1l b1 W1r gamma beta
    = Cert.Sage.hidden cN eps (meanAgg hN (srcCol (srcVec ei)) (dstCol (dstVec ei)) (degInv (dstVec ei)) x) x W1l W1r b1 gamma beta := by
  unfold Hk
  rw [H1_eq, Cert.KernelIdeal.Host.meanHost_eq, Cert.KernelIdeal.Host.sqDevHost_eq, Cert.KernelIdeal.Host.meanHost_eq,
    Cert.KernelIdeal.Host.rowVec_shapeCast_128, Cert.KernelIdeal.Host.rowVec_shapeCast_128,
    Cert.KernelIdeal.Host.rowVec_shapeCast_128, Cert.KernelIdeal.Host.rowVec_shapeCast_128]
  rfl

/-- The kernel's result is the second layer with the weight applied before the aggregation. -/
theorem Out_eq : Out x ei W1l b1 W1r gamma beta W2l b2 W2r
    = outPre hN (srcCol (srcVec ei)) (dstCol (dstVec ei)) (degInv (dstVec ei))
        (Cert.Sage.hidden cN eps (meanAgg hN (srcCol (srcVec ei)) (dstCol (dstVec ei)) (degInv (dstVec ei)) x) x W1l W1r b1 gamma beta)
        W2l W2r b2 := by
  unfold Out
  rw [Hk_eq, Cert.KernelIdeal.Host.aggHost_eq, Cert.KernelIdeal.Host.rowVec_shapeCast_64]
  rfl

/-- The in-degree counts are real numbers. -/
theorem isFin_countAt (dst : ICol 800000) : IsFin (countAt (N := 50000) 0x3F800000#32 dst) := by
  intro i
  refine ⟨∑ _r ∈ Finset.univ.filter (fun r : Fin 800000 => (dst (ix2 r (0 : Fin 1))).toInt = (((i 0 : Fin 50000)).val : ℤ)), (1 : ℝ), ?_⟩
  unfold countAt
  rw [lit_one, zero_add, coe_sum]

/-- The reciprocal degrees are real numbers. -/
theorem isFin_dR : IsFin (Cert.ReferenceIdeal.RefValue.dR ei) :=
  isFin_degInv (countAt (N := 50000) 0x3F800000#32 (Cert.ReferenceIdeal.RefValue.dstR ei)) (Cert.ReferenceIdeal.RefValue.dR ei)
    (Ideal.ofBits .f32 0x3F800000#32) (Ideal.ofBits .f32 0x00000000#32) lit_one Ideal.ofBits_zero_f32
    (isFin_countAt _) (Cert.ReferenceIdeal.RefValue.dR_cases ei)

/-- THE BRIDGE: on finite inputs the kernel's result is the reference's. -/
theorem kernel_eq_ref (hx : IsFin x) (hW1l : IsFin W1l) (hb1 : IsFin b1) (hW1r : IsFin W1r) (hg : IsFin gamma) (hbe : IsFin beta)
    (hW2l : IsFin W2l) (hb2 : IsFin b2) (hW2r : IsFin W2r) :
    Out x ei W1l b1 W1r gamma beta W2l b2 W2r
      = Cert.ReferenceIdeal.ReadP.val_main_v78 (F := Ideal) x ei W1l b1 W1r gamma beta W2l b2 W2r := by
  have hd : degInv (dstVec ei) = Cert.ReferenceIdeal.RefValue.dR ei := by
    rw [Cert.KernelIdeal.Host.degInv_eq, Cert.EdgeCols.dstCol_eq, Cert.ReferenceIdeal.RefValue.dR_eq]
  rw [Out_eq, Cert.ReferenceIdeal.RefValue.ref_value, Cert.EdgeCols.srcCol_eq, Cert.EdgeCols.dstCol_eq, hd]
  have hdf := isFin_dR ei
  exact outPre_eq_outPost _ _ _ _ _ _ _ _
    (isFin_hidden _ _ lit_50000 lit_eps _ _ _ _ _ _ _ (isFin_meanAgg _ _ _ hdf hx) hx hW1l hW1r hb1 hg hbe) hW2l hdf

end Cert.Bridge

end
-- ==== Proof.lean ====
/-
  The certificate of a two-layer mean-aggregation graph network: a kernel of three tiled regions among host
  operations, against a plain array reference, over the extended reals.

  Both programs compute, per node, the mean of its in-neighbours' features (rows gathered at the source indices,
  summed per destination, scaled by the reciprocal in-degree, zero for an isolated node), pass the aggregate and the
  node's own features through two weights and add a bias, normalise every column by its mean and variance over the
  nodes, cut at zero, and apply a second such layer. They differ in two places. The order in which the bias and the
  own-feature term are added — immaterial, addition of extended reals being commutative and associative. And the second
  layer: the kernel multiplies the hidden features by the aggregation weight FIRST and aggregates the 64-wide product,
  the reference aggregates the 128-wide hidden features and multiplies afterwards. These agree by distributivity, which
  over the extended reals needs every hidden feature, weight entry and reciprocal degree to be a real number; that is
  where the precondition (every float input finite) is used: a finite input makes the first layer real, its column
  variance a nonnegative real, the root's argument positive, hence the hidden features real.

  The frames of the two kernel programs are the generated ones; the reference's frame is its run with the result
  dropped. The idealization rewrote nothing, so the preservation claim is trivial. For the value claim the kernel's run
  is restated with its result buffer named, the result is read back through the regions and host stretches to the launch
  arrays, each side is rewritten into the same mathematical combinators, and the bridge joins them.
-/
import proofs.«103092_j3092376453137_2_alg».proof.Defs
import proofs.«103092_j3092376453137_2_alg».proof.Proof.Gen.Kernel
import proofs.«103092_j3092376453137_2_alg».proof.Proof.Gen.Kernel.Skeleton
import proofs.«103092_j3092376453137_2_alg».proof.Proof.Gen.Kernel.Launch
import proofs.«103092_j3092376453137_2_alg».proof.Proof.Gen.Kernel.Points
import proofs.«103092_j3092376453137_2_alg».proof.Proof.Gen.Kernel.Frame
import proofs.«103092_j3092376453137_2_alg».proof.Proof.Gen.KernelIdeal
import proofs.«103092_j3092376453137_2_alg».proof.Proof.Gen.KernelIdeal.Skeleton
import proofs.«103092_j3092376453137_2_alg».proof.Proof.Gen.KernelIdeal.Launch
import proofs.«103092_j3092376453137_2_alg».proof.Proof.Gen.KernelIdeal.Points
import proofs.«103092_j3092376453137_2_alg».proof.Proof.Gen.KernelIdeal.Frame
import proofs.«103092_j3092376453137_2_alg».proof.Proof.Gen.ReferenceIdeal
import proofs.«103092_j3092376453137_2_alg».proof.Proof.Gen.Pre_finite_inputs
import proofs.«103092_j3092376453137_2_alg».proof.Proof.KernelRun
import proofs.«103092_j3092376453137_2_alg».proof.Proof.RefRun
import proofs.«103092_j3092376453137_2_alg».proof.Proof.PreFin
import proofs.«103092_j3092376453137_2_alg».proof.Proof.Bridge
import Idealize.ShloMosaic.Adequacy
import Idealize.ShloMosaic.Init

set_option maxRecDepth 16384

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments, finite, both idealized programs end with the same result array. -/
theorem algebraic : Cert.algebraic_KernelIdeal_ReferenceIdeal := by
  intro m ρ m' ρ' hpre hagree
  refine ⟨fun c => Cert.KernelIdeal.KVal.Out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KVal.w8_v59 m ρ c), (h c).2⟩)
      (Cert.KernelIdeal.KRun.run_valued (F := Ideal) m ρ)
  · refine (θ_run Cert.ReferenceIdeal.defs _ _).mono (fun r h c => ⟨(h c).1.trans ?_, (h c).2⟩)
      (Cert.ReferenceIdeal.ValueP.run (F := Ideal) m' ρ')
    obtain ⟨hx, hW1l, hb1, hW1r, hg, hbe, hW2l, hb2, hW2r⟩ := Cert.Sage.fin_of_pre _ _ _ _ _ _ _ _ _ _ (hpre c)
    rw [Cert.ReferenceIdeal.ReadP.val_main_v78_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (Cert.Bridge.kernel_eq_ref _ _ _ _ _ _ _ _ _ _ hx hW1l hb1 hW1r hg hbe hW2l hb2 hW2r).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
